-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x192 : Shape := ⟨2, ![256, 192]⟩
abbrev S192 : Shape := ⟨1, ![192]⟩
abbrev S192x192 : Shape := ⟨2, ![192, 192]⟩
abbrev S192x128 : Shape := ⟨2, ![192, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x192 : S_.BroadcastsInDim S192x192 (![] : Fin 0 → Fin S192x192.rank)
  reducesTo_S192x192_S_d0_1 : S192x192.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S192 .f32) (main_arg6 : FVec F S192x128 .f32) (main_arg7 : FVec F S128 .f32) (main_v13 : IVec S_ 1) (main_v16 : IVec S192x192 1) : IVec S_ 1 :=
  let main_c_5 : IVec S_ 1 := constantI S_ 1 1#1
  let main_v17 : IVec S_ 1 := (fun x v => Host.reduce IntOp.andi x v reducesTo_S192x192_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x128 .f32 := Host.absf main_arg6
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x400000 32) (main_arg2 : FVec F S256x192 .f32) (main_arg3 : FVec F S192 .f32) (main_arg4 : FVec F S192x192 .f32) (main_arg5 : FVec F S192 .f32) (main_arg6 : FVec F S192x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x192 .f32 := Host.absf main_arg2
  let main_cst_0 : FVec F S_ .f32 := constant S_ .f32 0x7F800000#32
  let main_v5 : FVec F S256x192 .f32 := broadcastInDim S256x192 ![] bcast_S_S256x192 main_cst_0
  let main_v6 : IVec S256x192 1 := cmpf .olt main_v4 main_v5
  let main_c_1 : IVec S_ 1 := constantI S_ 1 1#1
  let main_v7 : IVec S_ 1 := (fun x v => Host.reduce IntOp.andi x v reducesTo_S256x192_S_d0_1 h_S_) main_v6 main_c_1
  let main_v8 : IVec S_ 1 := andi main_v3 main_v7
  let main_v9 : FVec F S192 .f32 := Host.absf main_arg3
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192x192 .f32 := Host.absf main_arg4
  let main_cst_4 : FVec F S_ .f32 := constant S_ .f32 0x7F800000#32
  let main_v15 : FVec F S192x192 .f32 := broadcastInDim S192x192 ![] bcast_S_S192x192 main_cst_4
  let main_v16 : IVec S192x192 1 := cmpf .olt main_v14 main_v15
  fn_part1 (F := F) main_arg5 main_arg6 main_arg7 main_v13 main_v16
-- ==== Kernel.lean ====
abbrev S50000x256 : Shape := ⟨2, ![50000, 256]⟩
abbrev S2x400000 : Shape := ⟨2, ![2, 400000]⟩
abbrev S256x192 : Shape := ⟨2, ![256, 192]⟩
abbrev S192 : Shape := ⟨1, ![192]⟩
abbrev S192x192 : Shape := ⟨2, ![192, 192]⟩
abbrev S192x128 : Shape := ⟨2, ![192, 128]⟩
abbrev S128 : Shape := ⟨1, ![128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x192 : Shape := ⟨2, ![50000, 192]⟩
abbrev S5000x256 : Shape := ⟨2, ![5000, 256]⟩
abbrev S5000x192 : Shape := ⟨2, ![5000, 192]⟩
abbrev S450000x192 : Shape := ⟨2, ![450000, 192]⟩
abbrev S1x192 : Shape := ⟨2, ![1, 192]⟩
abbrev S50000x128 : Shape := ⟨2, ![50000, 128]⟩
abbrev S5000x128 : Shape := ⟨2, ![5000, 128]⟩
abbrev S450000x128 : Shape := ⟨2, ![450000, 128]⟩
abbrev S1x128 : Shape := ⟨2, ![1, 128]⟩

abbrev nBuf : Space → Nat
  | .hbm => 106
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x192, .f32⟩
  | .hbm, ⟨3, _⟩ => ⟨S192, .f32⟩
  | .hbm, ⟨4, _⟩ => ⟨S192x192, .f32⟩
  | .hbm, ⟨5, _⟩ => ⟨S192, .f32⟩
  | .hbm, ⟨6, _⟩ => ⟨S192x128, .f32⟩
  | .hbm, ⟨7, _⟩ => ⟨S128, .f32⟩
  | .hbm, ⟨8, _⟩ => ⟨S50000, .i32⟩
  | .hbm, ⟨9, _⟩ => ⟨S1x400000, .i32⟩
  | .hbm, ⟨10, _⟩ => ⟨S400000, .i32⟩
  | .hbm, ⟨11, _⟩ => ⟨S450000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S450000, .i32⟩
  | .hbm, ⟨33, _⟩ => ⟨S450000, .i1⟩
  | .hbm, ⟨34, _⟩ => ⟨S_, .i32⟩
  | .hbm, ⟨35, _⟩ => ⟨S450000, .i32⟩
  | .hbm, ⟨36, _⟩ => ⟨S450000, .i32⟩
  | .hbm, ⟨37, _⟩ => ⟨S450000, .i32⟩
  | .hbm, ⟨38, _⟩ => ⟨S450000x1, .i32⟩
  | .hbm, ⟨39, _⟩ => ⟨S450000, .f32⟩
  | .hbm, ⟨40, _⟩ => ⟨S_, .i32⟩
  | .hbm, ⟨41, _⟩ => ⟨S450000, .i32⟩
  | .hbm, ⟨42, _⟩ => ⟨S450000, .i1⟩
  | .hbm, ⟨43, _⟩ => ⟨S_, .i32⟩
  | .hbm, ⟨44, _⟩ => ⟨S450000, .i32⟩
  | .hbm, ⟨45, _⟩ => ⟨S450000, .i32⟩
  | .hbm, ⟨46, _⟩ => ⟨S450000, .i32⟩
  | .hbm, ⟨47, _⟩ => ⟨S450000x1, .i32⟩
  | .hbm, ⟨48, _⟩ => ⟨S450000, .f32⟩
  | .hbm, ⟨49, _⟩ => ⟨S450000, .f32⟩
  | .hbm, ⟨50, _⟩ => ⟨S450000x1, .f32⟩
  | .hbm, ⟨51, _⟩ => ⟨S50000x192, .f32⟩
  | .hbm, ⟨52, _⟩ => ⟨S_, .i32⟩
  | .hbm, ⟨53, _⟩ => ⟨S450000, .i32⟩
  | .hbm, ⟨54, _⟩ => ⟨S450000, .i1⟩
  | .hbm, ⟨55, _⟩ => ⟨S_, .i32⟩
  | .hbm, ⟨56, _⟩ => ⟨S450000, .i32⟩
  | .hbm, ⟨57, _⟩ => ⟨S450000, .i32⟩
  | .hbm, ⟨58, _⟩ => ⟨S450000, .i32⟩
  | .hbm, ⟨59, _⟩ => ⟨S450000x1, .i32⟩
  | .hbm, ⟨60, _⟩ => ⟨S450000x192, .f32⟩
  | .hbm, ⟨61, _⟩ => ⟨S450000x192, .f32⟩
  | .hbm, ⟨62, _⟩ => ⟨S450000x192, .f32⟩
  | .hbm, ⟨63, _⟩ => ⟨S_, .f32⟩
  | .hbm, ⟨64, _⟩ => ⟨S50000x192, .f32⟩
  | .hbm, ⟨65, _⟩ => ⟨S450000x1, .i32⟩
  | .hbm, ⟨66, _⟩ => ⟨S50000x192, .f32⟩
  | .hbm, ⟨67, _⟩ => ⟨S1x192, .f32⟩
  | .hbm, ⟨68, _⟩ => ⟨S50000x192, .f32⟩
  | .hbm, ⟨69, _⟩ => ⟨S50000x192, .f32⟩
  | .hbm, ⟨70, _⟩ => ⟨S_, .i32⟩
  | .hbm, ⟨71, _⟩ => ⟨S450000, .i32⟩
  | .hbm, ⟨72, _⟩ => ⟨S450000, .i1⟩
  | .hbm, ⟨73, _⟩ => ⟨S_, .i32⟩
  | .hbm, ⟨74, _⟩ => ⟨S450000, .i32⟩
  | .hbm, ⟨75, _⟩ => ⟨S450000, .i32⟩
  | .hbm, ⟨76, _⟩ => ⟨S450000, .i32⟩
  | .hbm, ⟨77, _⟩ => ⟨S450000x1, .i32⟩
  | .hbm, ⟨78, _⟩ => ⟨S450000x192, .f32⟩
  | .hbm, ⟨79, _⟩ => ⟨S450000x192, .f32⟩
  | .hbm, ⟨80, _⟩ => ⟨S450000x192, .f32⟩
  | .hbm, ⟨81, _⟩ => ⟨S_, .f32⟩
  | .hbm, ⟨82, _⟩ => ⟨S50000x192, .f32⟩
  | .hbm, ⟨83, _⟩ => ⟨S450000x1, .i32⟩
  | .hbm, ⟨84, _⟩ => ⟨S50000x192, .f32⟩
  | .hbm, ⟨85, _⟩ => ⟨S1x192, .f32⟩
  | .hbm, ⟨86, _⟩ => ⟨S50000x192, .f32⟩
  | .hbm, ⟨87, _⟩ => ⟨S50000x128, .f32⟩
  | .hbm, ⟨88, _⟩ => ⟨S_, .i32⟩
  | .hbm, ⟨89, _⟩ => ⟨S450000, .i32⟩
  | .hbm, ⟨90, _⟩ => ⟨S450000, .i1⟩
  | .hbm, ⟨91, _⟩ => ⟨S_, .i32⟩
  | .hbm, ⟨92, _⟩ => ⟨S450000, .i32⟩
  | .hbm, ⟨93, _⟩ => ⟨S450000, .i32⟩
  | .hbm, ⟨94, _⟩ => ⟨S450000, .i32⟩
  | .hbm, ⟨95, _⟩ => ⟨S450000x1, .i32⟩
  | .hbm, ⟨96, _⟩ => ⟨S450000x128, .f32⟩
  | .hbm, ⟨97, _⟩ => ⟨S450000x128, .f32⟩
  | .hbm, ⟨98, _⟩ => ⟨S450000x128, .f32⟩
  | .hbm, ⟨99, _⟩ => ⟨S_, .f32⟩
  | .hbm, ⟨100, _⟩ => ⟨S50000x128, .f32⟩
  | .hbm, ⟨101, _⟩ => ⟨S450000x1, .i32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x192, .f32⟩
  | .local _ .vmem, ⟨3, _⟩ => ⟨S5000x192, .f32⟩
  | .local _ .vmem, ⟨4, _⟩ => ⟨S5000x192, .f32⟩
  | .local _ .vmem, ⟨5, _⟩ => ⟨S5000x192, .f32⟩
  | .local _ .vmem, ⟨6, _⟩ => ⟨S5000x192, .f32⟩
  | .local _ .vmem, ⟨7, _⟩ => ⟨S1x192, .f32⟩
  | .local _ .vmem, ⟨8, _⟩ => ⟨S5000x192, .f32⟩
  | .local _ .vmem, ⟨9, _⟩ => ⟨S5000x192, .f32⟩
  | .local _ .vmem, ⟨10, _⟩ => ⟨S5000x192, .f32⟩
  | .local _ .vmem, ⟨11, _⟩ => ⟨S5000x192, .f32⟩
  | .local _ .vmem, ⟨12, _⟩ => ⟨S192x192, .f32⟩
  | .local _ .vmem, ⟨13, _⟩ => ⟨S5000x192, .f32⟩
  | .local _ .vmem, ⟨14, _⟩ => ⟨S5000x192, .f32⟩
  | .local _ .vmem, ⟨15, _⟩ => ⟨S5000x192, .f32⟩
  | .local _ .vmem, ⟨16, _⟩ => ⟨S5000x192, .f32⟩
  | .local _ .vmem, ⟨17, _⟩ => ⟨S1x192, .f32⟩
  | .local _ .vmem, ⟨18, _⟩ => ⟨S5000x192, .f32⟩
  | .local _ .vmem, ⟨19, _⟩ => ⟨S5000x192, .f32⟩
  | .local _ .vmem, ⟨20, _⟩ => ⟨S5000x192, .f32⟩
  | .local _ .vmem, ⟨21, _⟩ => ⟨S5000x192, .f32⟩
  | .local _ .vmem, ⟨22, _⟩ => ⟨S192x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76_0 : Ref sig .tc := ⟨.hbm, 104, rfl⟩
abbrev main_v76_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  inb_S5000x192_S5000x192_0_0 : ∀ a, (![0, 0] : Fin 2 → Nat) a + S5000x192.size a ≤ S5000x192.size a
  h_S5000x192 : 0 < S5000x192.numel
  bcast_S450000x1_S450000x192_0_1 : S450000x1.BroadcastsInDim S450000x192 (![0, 1] : Fin 2 → Fin S450000x192.rank)
  bcast_S_S50000x192 : S_.BroadcastsInDim S50000x192 (![] : Fin 0 → Fin S50000x192.rank)
  shapeCasts_S192_S1x192 : S192.ShapeCasts S1x192
  shapeCasts_S5000x192_S5000x192 : S5000x192.ShapeCasts S5000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S192x192_S192x192_0_0 : ∀ a, (![0, 0] : Fin 2 → Nat) a + S192x192.size a ≤ S192x192.size a
  h_S192x192 : 0 < S192x192.numel
  inb_S192x128_S192x128_0_0 : ∀ a, (![0, 0] : Fin 2 → Nat) a + S192x128.size a ≤ S192x128.size a
  h_S192x128 : 0 < S192x128.numel
  inb_S5000x128_S5000x128_0_0 : ∀ a, (![0, 0] : Fin 2 → Nat) a + S5000x128.size a ≤ S5000x128.size a
  h_S5000x128 : 0 < S5000x128.numel
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S5000x256_S256x192_S5000x192_1_0_0_1_n_n_wf : DotDims.WF S5000x256 S256x192 S5000x192 [1] [0] [0] [1] [] []
  gather_S50000x192_S450000x1_S450000x192_1_0_n_n_0_1_1192_wf : GatherDims.WF S50000x192 S450000x1 S450000x192 [1] [0] [] [0] [] 1 ![1, 192]
  scatter_S50000x192_S450000x1_S450000x192_1_0_0_1_wf : ScatterDims.WF S50000x192 S450000x1 S450000x192 [1] [0] [0] 1
  dot_S5000x192_S192x192_S5000x192_1_0_0_1_n_n_wf : DotDims.WF S5000x192 S192x192 S5000x192 [1] [0] [0] [1] [] []
  dot_S5000x192_S192x128_S5000x128_1_0_0_1_n_n_wf : DotDims.WF S5000x192 S192x128 S5000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S256x192.size a
  hwx0_1 : ∀ i : grid0.Coords, EltTy.bits .f32 = 32 ∨ (Rect.block (s := S256x192) S256x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x192.size a ≤ S50000x192.size a
  hwx0_2 : ∀ i : grid0.Coords, EltTy.bits .f32 = 32 ∨ (Rect.block (s := S50000x192) S5000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x192.size a ≤ S50000x192.size a
  hwx1_0 : ∀ i : grid1.Coords, EltTy.bits .f32 = 32 ∨ (Rect.block (s := S50000x192) S5000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x192.size a ≤ S1x192.size a
  hwx1_1 : ∀ i : grid1.Coords, EltTy.bits .f32 = 32 ∨ (Rect.block (s := S1x192) S1x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x192.size a ≤ S50000x192.size a
  hwx1_2 : ∀ i : grid1.Coords, EltTy.bits .f32 = 32 ∨ (Rect.block (s := S50000x192) S5000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S50000x192.size a
  hwx2_0 : ∀ i : grid2.Coords, EltTy.bits .f32 = 32 ∨ (Rect.block (s := S50000x192) S5000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x192.size a ≤ S50000x192.size a
  hwx2_2 : ∀ i : grid2.Coords, EltTy.bits .f32 = 32 ∨ (Rect.block (s := S50000x192) S5000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x192.size a ≤ S1x192.size a
  hwx3_1 : ∀ i : grid3.Coords, EltTy.bits .f32 = 32 ∨ (Rect.block (s := S1x192) S1x192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x192.size a ≤ S50000x192.size a
  hwx3_2 : ∀ i : grid3.Coords, EltTy.bits .f32 = 32 ∨ (Rect.block (s := S50000x192) S5000x192.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S50000x192.size a
  hwx4_0 : ∀ i : grid4.Coords, EltTy.bits .f32 = 32 ∨ (Rect.block (s := S50000x192) S5000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x128.size a ≤ S192x128.size a
  hwx4_1 : ∀ i : grid4.Coords, EltTy.bits .f32 = 32 ∨ (Rect.block (s := S192x128) S192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S5000x256_S256x192_S5000x192_1_0_0_1_n_n : DotDims S5000x256 S256x192 S5000x192 where
  lhsContracting := [1]
  rhsContracting := [0]
  lhsNonContracting := [0]
  rhsNonContracting := [1]
  lhsBatch := []
  rhsBatch := []
  wf := dot_S5000x256_S256x192_S5000x192_1_0_0_1_n_n_wf
def gather_S50000x192_S450000x1_S450000x192_1_0_n_n_0_1_1192 : GatherDims S50000x192 S450000x1 S450000x192 where
  offsetDims := [1]
  collapsedSliceDims := [0]
  operandBatchingDims := []
  startIndicesBatchingDims := []
  startIndexMap := [0]
  indexVectorDim := 1
  sliceSizes := ![1, 192]
  wf := gather_S50000x192_S450000x1_S450000x192_1_0_n_n_0_1_1192_wf
def scatter_S50000x192_S450000x1_S450000x192_1_0_0_1 : ScatterDims S50000x192 S450000x1 S450000x192 where
  updateWindowDims := [1]
  insertedWindowDims := [0]
  scatterDimsToOperandDims := [0]
  indexVectorDim := 1
  wf := scatter_S50000x192_S450000x1_S450000x192_1_0_0_1_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S192x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76_1) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x192 : Shape := ⟨2, ![256, 192]⟩
abbrev S192 : Shape := ⟨1, ![192]⟩
abbrev S192x192 : Shape := ⟨2, ![192, 192]⟩
abbrev S192x128 : Shape := ⟨2, ![192, 128]⟩
abbrev S128 : Shape := ⟨1, ![128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x192 : Shape := ⟨2, ![50000, 192]⟩
abbrev S450000x192 : Shape := ⟨2, ![450000, 192]⟩
abbrev S1x192 : Shape := ⟨2, ![1, 192]⟩
abbrev S50000x128 : Shape := ⟨2, ![50000, 128]⟩
abbrev S450000x128 : Shape := ⟨2, ![450000, 128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S50000x256, .f32⟩
  | 1 => ⟨S2x400000, .i32⟩
  | 2 => ⟨S256x192, .f32⟩
  | 3 => ⟨S192, .f32⟩
  | 4 => ⟨S192x192, .f32⟩
  | 5 => ⟨S192, .f32⟩
  | 6 => ⟨S192x128, .f32⟩
  | 7 => ⟨S128, .f32⟩
  | 8 => ⟨S50000, .i32⟩
  | 9 => ⟨S1x400000, .i32⟩
  | 10 => ⟨S400000, .i32⟩
  | 11 => ⟨S450000, .i32⟩
  | 12 => ⟨S1x400000, .i32⟩
  | 13 => ⟨S400000, .i32⟩
  | 14 => ⟨S450000, .i32⟩
  | 15 => ⟨S_, .f32⟩
  | 16 => ⟨S450000, .f32⟩
  | 17 => ⟨S_, .f32⟩
  | 18 => ⟨S50000, .f32⟩
  | 19 => ⟨S450000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S450000, .i32⟩
  | 33 => ⟨S450000, .i1⟩
  | 34 => ⟨S_, .i32⟩
  | 35 => ⟨S450000, .i32⟩
  | 36 => ⟨S450000, .i32⟩
  | 37 => ⟨S450000, .i32⟩
  | 38 => ⟨S450000x1, .i32⟩
  | 39 => ⟨S450000, .f32⟩
  | 40 => ⟨S_, .i32⟩
  | 41 => ⟨S450000, .i32⟩
  | 42 => ⟨S450000, .i1⟩
  | 43 => ⟨S_, .i32⟩
  | 44 => ⟨S450000, .i32⟩
  | 45 => ⟨S450000, .i32⟩
  | 46 => ⟨S450000, .i32⟩
  | 47 => ⟨S450000x1, .i32⟩
  | 48 => ⟨S450000, .f32⟩
  | 49 => ⟨S450000, .f32⟩
  | 50 => ⟨S50000x192, .f32⟩
  | 51 => ⟨S_, .i32⟩
  | 52 => ⟨S450000, .i32⟩
  | 53 => ⟨S450000, .i1⟩
  | 54 => ⟨S_, .i32⟩
  | 55 => ⟨S450000, .i32⟩
  | 56 => ⟨S450000, .i32⟩
  | 57 => ⟨S450000, .i32⟩
  | 58 => ⟨S450000x1, .i32⟩
  | 59 => ⟨S450000x192, .f32⟩
  | 60 => ⟨S450000x1, .f32⟩
  | 61 => ⟨S450000x192, .f32⟩
  | 62 => ⟨S450000x192, .f32⟩
  | 63 => ⟨S_, .f32⟩
  | 64 => ⟨S50000x192, .f32⟩
  | 65 => ⟨S450000x1, .i32⟩
  | 66 => ⟨S50000x192, .f32⟩
  | 67 => ⟨S1x192, .f32⟩
  | 68 => ⟨S50000x192, .f32⟩
  | 69 => ⟨S50000x192, .f32⟩
  | 70 => ⟨S_, .f32⟩
  | 71 => ⟨S50000x192, .f32⟩
  | 72 => ⟨S50000x192, .f32⟩
  | 73 => ⟨S50000x192, .f32⟩
  | 74 => ⟨S_, .i32⟩
  | 75 => ⟨S450000, .i32⟩
  | 76 => ⟨S450000, .i1⟩
  | 77 => ⟨S_, .i32⟩
  | 78 => ⟨S450000, .i32⟩
  | 79 => ⟨S450000, .i32⟩
  | 80 => ⟨S450000, .i32⟩
  | 81 => ⟨S450000x1, .i32⟩
  | 82 => ⟨S450000x192, .f32⟩
  | 83 => ⟨S450000x1, .f32⟩
  | 84 => ⟨S450000x192, .f32⟩
  | 85 => ⟨S450000x192, .f32⟩
  | 86 => ⟨S_, .f32⟩
  | 87 => ⟨S50000x192, .f32⟩
  | 88 => ⟨S450000x1, .i32⟩
  | 89 => ⟨S50000x192, .f32⟩
  | 90 => ⟨S1x192, .f32⟩
  | 91 => ⟨S50000x192, .f32⟩
  | 92 => ⟨S50000x192, .f32⟩
  | 93 => ⟨S_, .f32⟩
  | 94 => ⟨S50000x192, .f32⟩
  | 95 => ⟨S50000x192, .f32⟩
  | 96 => ⟨S50000x128, .f32⟩
  | 97 => ⟨S_, .i32⟩
  | 98 => ⟨S450000, .i32⟩
  | 99 => ⟨S450000, .i1⟩
  | 100 => ⟨S_, .i32⟩
  | 101 => ⟨S450000, .i32⟩
  | 102 => ⟨S450000, .i32⟩
  | 103 => ⟨S450000, .i32⟩
  | 104 => ⟨S450000x1, .i32⟩
  | 105 => ⟨S450000x128, .f32⟩
  | 106 => ⟨S450000x1, .f32⟩
  | 107 => ⟨S450000x128, .f32⟩
  | 108 => ⟨S450000x128, .f32⟩
  | 109 => ⟨S_, .f32⟩
  | 110 => ⟨S50000x128, .f32⟩
  | 111 => ⟨S450000x1, .i32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .i1⟩
  | 127 => ⟨S_, .f32⟩
  | _ => ⟨S50000x256, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩
abbrev main_cst_18 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_cst_20 : Ref sig .tc := ⟨.hbm, 128, rfl⟩
abbrev main_call3_v0 : Ref sig .tc := ⟨.hbm, 129, rfl⟩
abbrev main_call3_v1 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x192_0_1 : S450000x1.BroadcastsInDim S450000x192 (![0, 1] : Fin 2 → Fin S450000x192.rank)
  bcast_S_S50000x192 : S_.BroadcastsInDim S50000x192 (![] : Fin 0 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x256_S256x192_S50000x192_1_0_0_1_n_n_wf : DotDims.WF S50000x256 S256x192 S50000x192 [1] [0] [0] [1] [] []
  gather_S50000x192_S450000x1_S450000x192_1_0_n_n_0_1_1192_wf : GatherDims.WF S50000x192 S450000x1 S450000x192 [1] [0] [] [0] [] 1 ![1, 192]
  scatter_S50000x192_S450000x1_S450000x192_1_0_0_1_wf : ScatterDims.WF S50000x192 S450000x1 S450000x192 [1] [0] [0] 1
  dot_S50000x192_S192x192_S50000x192_1_0_0_1_n_n_wf : DotDims.WF S50000x192 S192x192 S50000x192 [1] [0] [0] [1] [] []
  dot_S50000x192_S192x128_S50000x128_1_0_0_1_n_n_wf : DotDims.WF S50000x192 S192x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x256_S256x192_S50000x192_1_0_0_1_n_n : DotDims S50000x256 S256x192 S50000x192 where
  lhsContracting := [1]
  rhsContracting := [0]
  lhsNonContracting := [0]
  rhsNonContracting := [1]
  lhsBatch := []
  rhsBatch := []
  wf := dot_S50000x256_S256x192_S50000x192_1_0_0_1_n_n_wf
def gather_S50000x192_S450000x1_S450000x192_1_0_n_n_0_1_1192 : GatherDims S50000x192 S450000x1 S450000x192 where
  offsetDims := [1]
  collapsedSliceDims := [0]
  operandBatchingDims := []
  startIndicesBatchingDims := []
  startIndexMap := [0]
  indexVectorDim := 1
  sliceSizes := ![1, 192]
  wf := gather_S50000x192_S450000x1_S450000x192_1_0_n_n_0_1_1192_wf
def scatter_S50000x192_S450000x1_S450000x192_1_0_0_1 : ScatterDims S50000x192 S450000x1 S450000x192 where
  updateWindowDims := [1]
  insertedWindowDims := [0]
  scatterDimsToOperandDims := [0]
  indexVectorDim := 1
  wf := scatter_S50000x192_S450000x1_S450000x192_1_0_0_1_wf
def dot_S50000x192_S192x192_S50000x192_1_0_0_1_n_n : DotDims S50000x192 S192x192 S50000x192 where
  lhsContracting := [1]
  rhsContracting := [0]
  lhsNonContracting := [0]
  rhsNonContracting := [1]
  lhsBatch := []
  rhsBatch := []
  wf := dot_S50000x192_S192x192_S50000x192_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf

class Facts : Prop extends Facts₀ where

variable [Facts]
-- ==== Proof.KernelRun.lean ====
/- The kernel's run with its two result arrays named.

   The kernel program is twelve segments: stretches of host operations and six pipelined regions. The
   imported frame module folds the buffer contents through those segments (`W0` … `W12`) and proves that
   every execution ends with each unscoped buffer at the last boundary's contents `W12`; its own
   statement then keeps only the eight argument arrays. Here the same run is stated with the two result
   arrays kept as well, so that a value proof can read the results as `W12` at their two buffers. -/
import proofs.«126298_j45749991637478_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of the kernel's
    program on the cores terminates without fault, and in every final state the two result arrays hold the
    last boundary's contents `W12` at their buffers while the eight argument arrays are as launched. -/
theorem run : θ_run defs (onTc (τ := τ) (main (F := F))) ⟨m, fun _ => 0, ρ⟩ (fun r => ∀ c : Dev nD,
      r.2.mem ((c.tc : Thread nD τ).loc main_v76_0) = W12 m ρ c (Proc.devRef .tc main_v76_0)
      ∧ r.2.mem ((c.tc : Thread nD τ).loc main_v76_1) = W12 m ρ c (Proc.devRef .tc main_v76_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76_0 (by decide)),
       h c _ (mem_uc main_v76_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.Spec.lean ====
/-
  The four whole-array functions a graph-convolution layer is made of, over the extended reals, index by index.

  A layer multiplies the node features by a weight matrix, sums the neighbours' rows (the shared gather and
  scatter-add, which this file never mentions), adds a bias row to every node and applies an activation.
  `mm a b` is the matrix product: entry `(p, q)` is the sum over `k` of `a (p, k) * b (k, q)`, with no order
  or grouping left in the sum. `biasRelu x b` adds the one bias row `b` to every row of `x` and takes the
  maximum with zero. `biasLogistic x b` adds the bias row and applies the logistic function
  `1 / (1 + e^(-v))`. `threshold h` is `1` where `h` is at least one half and `0` elsewhere.
  Every function is stated for arbitrary extended-real entries: nothing here needs an entry to be finite.
-/
import Idealize.ShloMosaic.PureOps.Ideal.Laws
import Idealize.ShloMosaic.Lib.ValueIdx

noncomputable section

open scoped BigOperators
open Idealize.ShloMosaic Idealize.ShloMosaic.ValueIdx

namespace Gcn

variable {M K N : ℕ}

/-- The matrix product `[M, K] × [K, N]`, entry by entry. -/
def mm (a : FVec Ideal (⟨2, ![M, K]⟩ : Shape) .f32) (b : FVec Ideal (⟨2, ![K, N]⟩ : Shape) .f32) :
    FVec Ideal (⟨2, ![M, N]⟩ : Shape) .f32 :=
  fun i => ∑ k : Fin K, a (ix2 (i 0) k) * b (ix2 k (i 1))

theorem mm_apply (a : FVec Ideal (⟨2, ![M, K]⟩ : Shape) .f32) (b : FVec Ideal (⟨2, ![K, N]⟩ : Shape) .f32)
    (p : Fin M) (q : Fin N) : mm a b (ix2 p q) = ∑ k : Fin K, a (ix2 p k) * b (ix2 k q) := rfl

/-- The one row of a `[1, N]` array that a bias is stored as. -/
abbrev row0 (q : Fin N) : (⟨2, ![1, N]⟩ : Shape).Idx := ix2 (⟨0, Nat.one_pos⟩ : Fin 1) q

/-- Every row of `x` plus the bias row, then the maximum with zero. -/
def biasRelu (x : FVec Ideal (⟨2, ![M, N]⟩ : Shape) .f32) (b : FVec Ideal (⟨2, ![1, N]⟩ : Shape) .f32) :
    FVec Ideal (⟨2, ![M, N]⟩ : Shape) .f32 :=
  fun i => max (x i + b (row0 (i 1))) (Ideal.ofBits .f32 0x00000000#32)

/-- Every row of `x` plus the bias row, then the logistic function. -/
def biasLogistic (x : FVec Ideal (⟨2, ![M, N]⟩ : Shape) .f32) (b : FVec Ideal (⟨2, ![1, N]⟩ : Shape) .f32) :
    FVec Ideal (⟨2, ![M, N]⟩ : Shape) .f32 :=
  fun i => Ideal.logistic (x i + b (row0 (i 1)))

/-- One where the entry is at least one half, zero elsewhere. -/
def threshold (h : FVec Ideal (⟨2, ![M, N]⟩ : Shape) .f32) : FVec Ideal (⟨2, ![M, N]⟩ : Shape) .f32 :=
  fun i => Scalar.select (FloatOps.cmpf .oge (h i) (Ideal.ofBits .f32 0x3F000000#32 : Ideal .f32))
    (Ideal.ofBits .f32 0x3F800000#32 : Ideal .f32) (Ideal.ofBits .f32 0x00000000#32 : Ideal .f32)

end Gcn

end
-- ==== Proof.RefStages.lean ====
/-
  The reference's layers as the same four whole-array functions.

  The reference computes each layer as a `dot_general` of the node features with the weight matrix, the shared
  gather / scatter-add over the edges, a broadcast bias added to every row, and an activation. Read at an entry,
  its `dot_general` is the sum over the contracted axis, which is `Gcn.mm`; its bias, broadcast from a vector
  first to one row and then to every row, is the vector's entry at the column, which is what `Gcn.biasRelu` and
  `Gcn.biasLogistic` add when their bias row holds the vector; its sigmoid, spelt `1 / (1 + exp (-v))` with the
  host's negation, exponential, sum and quotient, is the logistic function by definition; and its threshold is the
  same comparison with one half and the same selection between one and zero.
-/
import proofs.«126298_j45749991637478_1_alg».proof.Proof.RefRead
import proofs.«126298_j45749991637478_1_alg».proof.Proof.Spec

noncomputable section

namespace Cert.ReferenceIdeal.Stages

open scoped BigOperators
open Idealize.ShloMosaic Idealize.ShloMosaic.ValueIdx
open Cert.ReferenceIdeal Cert.ReferenceIdeal.Read

variable (x0 : (⟨S50000x256, .f32⟩ : BufTy).Contents (Elt Ideal)) (x1 : (⟨S2x400000, .i32⟩ : BufTy).Contents (Elt Ideal)) (x2 : (⟨S256x192, .f32⟩ : BufTy).Contents (Elt Ideal)) (x3 : (⟨S192, .f32⟩ : BufTy).Contents (Elt Ideal)) (x4 : (⟨S192x192, .f32⟩ : BufTy).Contents (Elt Ideal)) (x5 : (⟨S192, .f32⟩ : BufTy).Contents (Elt Ideal)) (x6 : (⟨S192x128, .f32⟩ : BufTy).Contents (Elt Ideal)) (x7 : (⟨S128, .f32⟩ : BufTy).Contents (Elt Ideal))

/-- The word `0x3F800000` is the real number one. -/
theorem one_f32 : Ideal.ofBits .f32 0x3F800000#32 = 1 := by simp [Ideal.ofBits, Ideal.ieee, -EReal.coe_mul]; norm_num

/-- The first layer's `dot_general` is the matrix product of the features with the first weight matrix. -/
theorem lin1 : val_main_v31 (F := Ideal) x0 x2 = Gcn.mm x0 x2 := by
  funext i
  obtain ⟨p, q, rfl⟩ : ∃ (p : Fin 50000) (q : Fin 192), i = ix2 p q := ⟨i 0, i 1, eq_ix2 i⟩
  rw [val_main_v31_apply, Gcn.mm_apply]
  refine Finset.sum_congr rfl fun k _ => ?_
  have el : lidx_main_v31 (ix2 p q) k = ix2 p k := funext fun a => by match a with | ⟨0, _⟩ => rfl | ⟨1, _⟩ => rfl
  have er : ridx_main_v31 (ix2 p q) k = ix2 k q := funext fun a => by match a with | ⟨0, _⟩ => rfl | ⟨1, _⟩ => rfl
  rw [el, er]

/-- The second layer's `dot_general` is the matrix product of the first layer's output with the second weight matrix. -/
theorem lin2 : val_main_v49 (F := Ideal) x0 x1 x2 x3 x4 = Gcn.mm (val_main_v48 (F := Ideal) x0 x1 x2 x3) x4 := by
  funext i
  obtain ⟨p, q, rfl⟩ : ∃ (p : Fin 50000) (q : Fin 192), i = ix2 p q := ⟨i 0, i 1, eq_ix2 i⟩
  rw [val_main_v49_apply, Gcn.mm_apply]
  refine Finset.sum_congr rfl fun k _ => ?_
  have el : lidx_main_v49 (ix2 p q) k = ix2 p k := funext fun a => by match a with | ⟨0, _⟩ => rfl | ⟨1, _⟩ => rfl
  have er : ridx_main_v49 (ix2 p q) k = ix2 k q := funext fun a => by match a with | ⟨0, _⟩ => rfl | ⟨1, _⟩ => rfl
  rw [el, er]

/-- The third layer's `dot_general` is the matrix product of the second layer's output with the third weight matrix. -/
theorem lin3 : val_main_v67 (F := Ideal) x0 x1 x2 x3 x4 x5 x6 = Gcn.mm (val_main_v66 (F := Ideal) x0 x1 x2 x3 x4 x5) x6 := by
  funext i
  obtain ⟨p, q, rfl⟩ : ∃ (p : Fin 50000) (q : Fin 128), i = ix2 p q := ⟨i 0, i 1, eq_ix2 i⟩
  rw [val_main_v67_apply, Gcn.mm_apply]
  refine Finset.sum_congr rfl fun k _ => ?_
  have el : lidx_main_v67 (ix2 p q) k = ix2 p k := funext fun a => by match a with | ⟨0, _⟩ => rfl | ⟨1, _⟩ => rfl
  have er : ridx_main_v67 (ix2 p q) k = ix2 k q := funext fun a => by match a with | ⟨0, _⟩ => rfl | ⟨1, _⟩ => rfl
  rw [el, er]

/-- The first layer's bias and relu: the aggregate plus the bias vector's entry at the column, then the maximum with
    zero — `Gcn.biasRelu` with any bias row that holds the vector. -/
theorem act1 (b : FVec Ideal (⟨2, ![1, 192]⟩ : Shape) .f32) (hb : ∀ q : Fin 192, b (Gcn.row0 q) = x3 (ix1 q)) :
    val_main_v48 (F := Ideal) x0 x1 x2 x3 = Gcn.biasRelu (val_main_v44 (F := Ideal) x0 x1 x2) b := by
  funext i
  obtain ⟨p, q, rfl⟩ : ∃ (p : Fin 50000) (q : Fin 192), i = ix2 p q := ⟨i 0, i 1, eq_ix2 i⟩
  have hi : idx_main_v45 (idx_main_v46 (ix2 p q)) = ix1 q := funext fun a => by match a with | ⟨0, _⟩ => rfl
  rw [val_main_v48_apply, val_main_v47_apply, val_main_v46_apply, val_main_v45_apply, val_main_call1_v0_apply,
    val_main_call1_cst_apply, hi, ← hb q]
  rfl

/-- The second layer's bias and relu. -/
theorem act2 (b : FVec Ideal (⟨2, ![1, 192]⟩ : Shape) .f32) (hb : ∀ q : Fin 192, b (Gcn.row0 q) = x5 (ix1 q)) :
    val_main_v66 (F := Ideal) x0 x1 x2 x3 x4 x5 = Gcn.biasRelu (val_main_v62 (F := Ideal) x0 x1 x2 x3 x4) b := by
  funext i
  obtain ⟨p, q, rfl⟩ : ∃ (p : Fin 50000) (q : Fin 192), i = ix2 p q := ⟨i 0, i 1, eq_ix2 i⟩
  have hi : idx_main_v63 (idx_main_v64 (ix2 p q)) = ix1 q := funext fun a => by match a with | ⟨0, _⟩ => rfl
  rw [val_main_v66_apply, val_main_v65_apply, val_main_v64_apply, val_main_v63_apply, val_main_call2_v0_apply,
    val_main_call2_cst_apply, hi, ← hb q]
  rfl

/-- The third layer's bias and sigmoid: `1 / (1 + exp (-(aggregate + bias)))` is the logistic function of the sum. -/
theorem out_h (b : FVec Ideal (⟨2, ![1, 128]⟩ : Shape) .f32) (hb : ∀ q : Fin 128, b (Gcn.row0 q) = x7 (ix1 q)) :
    val_main_v89 (F := Ideal) x0 x1 x2 x3 x4 x5 x6 x7 = Gcn.biasLogistic (val_main_v80 (F := Ideal) x0 x1 x2 x3 x4 x5 x6) b := by
  funext i
  obtain ⟨p, q, rfl⟩ : ∃ (p : Fin 50000) (q : Fin 128), i = ix2 p q := ⟨i 0, i 1, eq_ix2 i⟩
  have hi : idx_main_v81 (idx_main_v82 (ix2 p q)) = ix1 q := funext fun a => by match a with | ⟨0, _⟩ => rfl
  rw [val_main_v89_apply, val_main_v88_apply, val_main_cst_17_apply, val_main_v87_apply, val_main_v86_apply,
    val_main_cst_16_apply, val_main_v85_apply, val_main_v84_apply, val_main_v83_apply, val_main_v82_apply,
    val_main_v81_apply, hi, ← hb q]
  generalize val_main_v80 (F := Ideal) x0 x1 x2 x3 x4 x5 x6 = f
  simp only [Ideal.hostDivf_def, Ideal.addf_def, Ideal.hostUnary_exp_def, Ideal.hostNegf_def, Ideal.ofBits_def, one_f32]
  rfl

/-- The threshold: one where the sigmoid is at least one half, zero elsewhere (the final conversion from f32 to f32
    is the identity). -/
theorem out_hc : val_main_v93 (F := Ideal) x0 x1 x2 x3 x4 x5 x6 x7 = Gcn.threshold (val_main_v89 (F := Ideal) x0 x1 x2 x3 x4 x5 x6 x7) := by
  funext i
  rw [val_main_v93_apply, val_main_v92_apply, val_main_v91_apply, val_main_v90_apply, val_main_cst_18_apply,
    val_main_call3_v0_apply, val_main_cst_19_apply, val_main_call3_v1_apply, val_main_cst_20_apply]
  rfl

end Cert.ReferenceIdeal.Stages

end
-- ==== Proof.Keep.lean ====
/- Buffers that nothing in between writes keep their contents across the fold.

   The imported frame module folds the buffer contents through the kernel program's twelve segments
   (`W0` at the launch, … , `W12` at the end): a stretch of host operations rewrites exactly the result
   buffers of its operations, and a pipelined region rewrites exactly its own arrays. So a buffer that is
   neither a result of a stretch nor an array of a region holds at the later boundary what it held at the
   earlier one. This module states that once per host stretch, for any reference outside the stretch's
   list of results, and then reads off the instances a value proof needs: each argument array at the
   boundary where it is read holds its launch contents, and the three host buffers every layer reads
   again (the source node of each edge, its destination node, and its weight as a column) hold at each
   later layer what they held when the first region was entered. -/
import proofs.«126298_j45749991637478_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The one-buffer set of a listed reference lies within the list's buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The result buffers of the first stretch of host operations after the launch, in order. -/
def writes0 : List (Ref sig .tc) :=
  [main_v0, main_v1, main_v2, main_v3, main_v4, main_v5, main_v6, main_cst, main_v7, main_cst_0, main_v8,
   main_v9, main_v10, main_cst_1, main_v11, main_v12, main_cst_2, main_v13, main_v14, main_cst_3]
/-- Each operation of that stretch writes within the list. -/
theorem writes0_sub : (hostOps0 : List (HloOp τ sig (Elt F))).Forall fun op =>
    op.writes ⊆ (writes0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The result buffers of the second stretch of host operations after the launch, in order. -/
def writes0_1 : List (Ref sig .tc) :=
  [main_call0_v0, main_call0_v1, main_v15]
/-- Each operation of that stretch writes within the list. -/
theorem writes0_1_sub : (hostOps0_1 : List (HloOp τ sig (Elt F))).Forall fun op =>
    op.writes ⊆ (writes0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The result buffers of the third stretch of host operations, which ends at the first region's entry, in order. -/
def writes0_2 : List (Ref sig .tc) :=
  [main_c, main_v16, main_v17, main_c_4, main_v18, main_v19, main_v20, main_v21, main_v22, main_c_5,
   main_v23, main_v24, main_c_6, main_v25, main_v26, main_v27, main_v28, main_v29, main_v30, main_v31]
/-- Each operation of that stretch writes within the list. -/
theorem writes0_2_sub : (hostOps0_2 : List (HloOp τ sig (Elt F))).Forall fun op =>
    op.writes ⊆ (writes0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The result buffers of the host stretch between the first and the second region, in order. -/
def writes1 : List (Ref sig .tc) :=
  [main_c_7, main_v33, main_v34, main_c_8, main_v35, main_v36, main_v37, main_v38, main_v39, main_v40,
   main_v41, main_cst_9, main_v42, main_v43, main_v44, main_v45]
/-- Each operation of that stretch writes within the list. -/
theorem writes1_sub : (hostOps1 : List (HloOp τ sig (Elt F))).Forall fun op =>
    op.writes ⊆ (writes1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-- The result buffers of the host stretch between the third and the fourth region, in order. -/
def writes3 : List (Ref sig .tc) :=
  [main_c_10, main_v48, main_v49, main_c_11, main_v50, main_v51, main_v52, main_v53, main_v54, main_v55,
   main_v56, main_cst_12, main_v57, main_v58, main_v59, main_v60]
/-- Each operation of that stretch writes within the list. -/
theorem writes3_sub : (hostOps3 : List (HloOp τ sig (Elt F))).Forall fun op =>
    op.writes ⊆ (writes3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-! ## One step of the fold at a buffer it does not write -/

section Steps
variable (c : Dev nD) (r : Ref sig .tc)

/-- Across the first stretch of host operations after the launch. -/
theorem across0 (hr : r ∉ writes0) : W1 m ρ c (Proc.devRef .tc r) = W0 m ρ c (Proc.devRef .tc r) :=
  StableHlo.after_of_writes_sub hostOps0 (W0 m ρ c) writes0_sub hr

/-- Across the second stretch of host operations after the launch. -/
theorem across0_1 (hr : r ∉ writes0_1) : W2 m ρ c (Proc.devRef .tc r) = W1 m ρ c (Proc.devRef .tc r) :=
  StableHlo.after_of_writes_sub hostOps0_1 (W1 m ρ c) writes0_1_sub hr

/-- Across the third stretch of host operations, which ends at the first region's entry. -/
theorem across0_2 (hr : r ∉ writes0_2) : W3 m ρ c (Proc.devRef .tc r) = W2 m ρ c (Proc.devRef .tc r) :=
  StableHlo.after_of_writes_sub hostOps0_2 (W2 m ρ c) writes0_2_sub hr

/-- Across the host stretch between the first and the second region. -/
theorem across1 (hr : r ∉ writes1) : W5 m ρ c (Proc.devRef .tc r) = W4 m ρ c (Proc.devRef .tc r) :=
  StableHlo.after_of_writes_sub hostOps1 (W4 m ρ c) writes1_sub hr

/-- Across the host stretch between the third and the fourth region. -/
theorem across3 (hr : r ∉ writes3) : W8 m ρ c (Proc.devRef .tc r) = W7 m ρ c (Proc.devRef .tc r) :=
  StableHlo.after_of_writes_sub hostOps3 (W7 m ρ c) writes3_sub hr

/-- From the first region's entry back to the launch: a buffer none of the three stretches before the first
    region writes holds there what the launch memory holds. -/
theorem W3_launch (h0 : r ∉ writes0) (h1 : r ∉ writes0_1) (h2 : r ∉ writes0_2) :
    W3 m ρ c (Proc.devRef .tc r) = m ((c : Thread nD τ).loc r) :=
  calc W3 m ρ c (Proc.devRef .tc r)
    _ = W2 m ρ c (Proc.devRef .tc r) := across0_2 m ρ c r h2
    _ = W1 m ρ c (Proc.devRef .tc r) := across0_1 m ρ c r h1
    _ = W0 m ρ c (Proc.devRef .tc r) := across0 m ρ c r h0
    _ = m ((c : Thread nD τ).loc r) := rfl

/-- From the third region's entry back to the first region's exit: across the second region and the host stretch
    before it. -/
theorem W6_W4 (a1 : ∀ w, Pipeline.arrRef spec1 w ≠ r) (h1 : r ∉ writes1) :
    W6 m ρ c (Proc.devRef .tc r) = W4 m ρ c (Proc.devRef .tc r) :=
  (W6_of_ne m ρ c r a1).trans (across1 m ρ c r h1)

/-- From the fifth region's entry back to the third region's exit: across the fourth region and the host stretch
    before it. -/
theorem W9_W7 (a3 : ∀ w, Pipeline.arrRef spec3 w ≠ r) (h3 : r ∉ writes3) :
    W9 m ρ c (Proc.devRef .tc r) = W7 m ρ c (Proc.devRef .tc r) :=
  (W9_of_ne m ρ c r a3).trans (across3 m ρ c r h3)

end Steps

/-! ## The argument arrays, each at the boundary where it is read, hold their launch contents -/

variable (c : Dev nD)

/-- The first argument (the node features) at the first region's entry. -/
theorem W3_arg0 : W3 m ρ c (Proc.devRef .tc main_arg0) = m ((c : Thread nD τ).loc main_arg0) :=
  W3_launch m ρ c main_arg0 (by decide) (by decide) (by decide)
/-- The third argument (the first layer's weight matrix) at the first region's entry. -/
theorem W3_arg2 : W3 m ρ c (Proc.devRef .tc main_arg2) = m ((c : Thread nD τ).loc main_arg2) :=
  W3_launch m ρ c main_arg2 (by decide) (by decide) (by decide)
/-- The fourth argument (the first layer's bias) at the first region's exit, where the next host stretch reads it. -/
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := W3_launch m ρ c main_arg3 (by decide) (by decide) (by decide)
/-- The fifth argument (the second layer's weight matrix) at the third region's entry. -/
theorem W6_arg4 : W6 m ρ c (Proc.devRef .tc main_arg4) = m ((c : Thread nD τ).loc main_arg4) :=
  calc W6 m ρ c (Proc.devRef .tc main_arg4)
    _ = W4 m ρ c (Proc.devRef .tc main_arg4) := W6_W4 m ρ c main_arg4 (by decide) (by decide)
    _ = W3 m ρ c (Proc.devRef .tc main_arg4) := W4_of_ne m ρ c main_arg4 (by decide)
    _ = m ((c : Thread nD τ).loc main_arg4) := W3_launch m ρ c main_arg4 (by decide) (by decide) (by decide)
/-- The sixth argument (the second layer's bias) at the third region's exit, where the next host stretch reads it. -/
theorem W7_arg5 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W4 m ρ c (Proc.devRef .tc main_arg5) := W6_W4 m ρ c main_arg5 (by decide) (by decide)
    _ = W3 m ρ c (Proc.devRef .tc main_arg5) := W4_of_ne m ρ c main_arg5 (by decide)
    _ = m ((c : Thread nD τ).loc main_arg5) := W3_launch m ρ c main_arg5 (by decide) (by decide) (by decide)
/-- The seventh argument (the third layer's weight matrix) at the fifth region's entry. -/
theorem W9_arg6 : W9 m ρ c (Proc.devRef .tc main_arg6) = m ((c : Thread nD τ).loc main_arg6) :=
  calc W9 m ρ c (Proc.devRef .tc main_arg6)
    _ = W7 m ρ c (Proc.devRef .tc main_arg6) := W9_W7 m ρ c main_arg6 (by decide) (by decide)
    _ = W6 m ρ c (Proc.devRef .tc main_arg6) := W7_of_ne m ρ c main_arg6 (by decide)
    _ = W4 m ρ c (Proc.devRef .tc main_arg6) := W6_W4 m ρ c main_arg6 (by decide) (by decide)
    _ = W3 m ρ c (Proc.devRef .tc main_arg6) := W4_of_ne m ρ c main_arg6 (by decide)
    _ = m ((c : Thread nD τ).loc main_arg6) := W3_launch m ρ c main_arg6 (by decide) (by decide) (by decide)
/-- The eighth argument (the third layer's bias) at the fifth region's exit, where the next host stretch reads it. -/
theorem W10_arg7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W7 m ρ c (Proc.devRef .tc main_arg7) := W9_W7 m ρ c main_arg7 (by decide) (by decide)
    _ = W6 m ρ c (Proc.devRef .tc main_arg7) := W7_of_ne m ρ c main_arg7 (by decide)
    _ = W4 m ρ c (Proc.devRef .tc main_arg7) := W6_W4 m ρ c main_arg7 (by decide) (by decide)
    _ = W3 m ρ c (Proc.devRef .tc main_arg7) := W4_of_ne m ρ c main_arg7 (by decide)
    _ = m ((c : Thread nD τ).loc main_arg7) := W3_launch m ρ c main_arg7 (by decide) (by decide) (by decide)

/-! ## The three host buffers every layer reads again hold what they held at the first region's entry -/

/-- The buffer of the source node of each edge, at the first region's exit, where the first layer's gather and scatter read it. -/
theorem W4_main_v3 : W4 m ρ c (Proc.devRef .tc main_v3) = W3 m ρ c (Proc.devRef .tc main_v3) :=
  W4_of_ne m ρ c main_v3 (by decide)
/-- The same buffer at the third region's exit, where the second layer's gather and scatter read it. -/
theorem W7_main_v3 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W4 m ρ c (Proc.devRef .tc main_v3) := W6_W4 m ρ c main_v3 (by decide) (by decide)
    _ = W3 m ρ c (Proc.devRef .tc main_v3) := W4_main_v3 m ρ c
/-- The same buffer at the fifth region's exit, where the third layer's gather and scatter read it. -/
theorem W10_main_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W7 m ρ c (Proc.devRef .tc main_v3) := W9_W7 m ρ c main_v3 (by decide) (by decide)
    _ = W3 m ρ c (Proc.devRef .tc main_v3) := W7_main_v3 m ρ c

/-- The buffer of the destination node of each edge, at the first region's exit, where the first layer's gather and scatter read it. -/
theorem W4_main_v6 : W4 m ρ c (Proc.devRef .tc main_v6) = W3 m ρ c (Proc.devRef .tc main_v6) :=
  W4_of_ne m ρ c main_v6 (by decide)
/-- The same buffer at the third region's exit, where the second layer's gather and scatter read it. -/
theorem W7_main_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W4 m ρ c (Proc.devRef .tc main_v6) := W6_W4 m ρ c main_v6 (by decide) (by decide)
    _ = W3 m ρ c (Proc.devRef .tc main_v6) := W4_main_v6 m ρ c
/-- The same buffer at the fifth region's exit, where the third layer's gather and scatter read it. -/
theorem W10_main_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W7 m ρ c (Proc.devRef .tc main_v6) := W9_W7 m ρ c main_v6 (by decide) (by decide)
    _ = W3 m ρ c (Proc.devRef .tc main_v6) := W7_main_v6 m ρ c

/-- The buffer of the weight of each edge, as a column, at the first region's exit, where the first layer's gather and scatter read it. -/
theorem W4_main_v31 : W4 m ρ c (Proc.devRef .tc main_v31) = W3 m ρ c (Proc.devRef .tc main_v31) :=
  W4_of_ne m ρ c main_v31 (by decide)
/-- The same buffer at the third region's exit, where the second layer's gather and scatter read it. -/
theorem W7_main_v31 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W4 m ρ c (Proc.devRef .tc main_v31) := W6_W4 m ρ c main_v31 (by decide) (by decide)
    _ = W3 m ρ c (Proc.devRef .tc main_v31) := W4_main_v31 m ρ c
/-- The same buffer at the fifth region's exit, where the third layer's gather and scatter read it. -/
theorem W10_main_v31 : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W7 m ρ c (Proc.devRef .tc main_v31) := W9_W7 m ρ c main_v31 (by decide) (by decide)
    _ = W3 m ρ c (Proc.devRef .tc main_v31) := W7_main_v31 m ρ c

end Cert.KernelIdeal.Keep

end
-- ==== Proof.BiasRows.lean ====
/- Each layer's bias row, read at the entry of the region that adds it.

   A layer's bias is an argument vector of length `n`. The region that adds it to every node's row takes it
   as a `[1, n]` array, which the host stretch before that region makes from the vector by a reshape, its last
   operation. A reshape to a leading unit axis moves no entry, and nothing before that boundary writes the
   argument, so the array's one row holds, entry by entry, the bias vector as launched. This module states
   that for the three layers: first the whole `[1, n]` array as the reshape of the argument's contents at
   the stretch's start, then its row read at a column. -/
import proofs.«126298_j45749991637478_1_alg».proof.Proof.Gen.KernelIdeal.Frame
import proofs.«126298_j45749991637478_1_alg».proof.Proof.Keep
import proofs.«126298_j45749991637478_1_alg».proof.Proof.Spec
import Idealize.ShloMosaic.Lib.ValueLayout
import Idealize.ShloMosaic.Lib.StableHlo.Run

set_option maxRecDepth 16384

noncomputable section

namespace Cert.KernelIdeal.BiasRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg) (c : Dev nD)

/-! ## The first layer's bias -/

/-- At the second region's entry the first layer's `[1, 192]` bias array is the reshape of what the bias
    vector's buffer held when the host stretch before it began. -/
theorem W5_main_v45 :
    (W5 m ρ c (Proc.devRef .tc main_v45) : S1x192.Idx → Elt F .f32)
      = shapeCast S1x192 (W4 m ρ c (Proc.devRef .tc main_arg3) : S192.Idx → Elt F .f32) Facts₀.shapeCasts_S192_S1x192 := by
  dsimp only [W5, hostOps1]
  after_results
  rfl

/-- Its one row at column `q` is the bias vector's entry `q` as launched. -/
theorem W5_bias (q : Fin 192) :
    W5 m ρ c (Proc.devRef .tc main_v45) (Gcn.row0 q) = m ((c : Thread nD τ).loc main_arg3) (ValueIdx.ix1 q) :=
  calc W5 m ρ c (Proc.devRef .tc main_v45) (Gcn.row0 q)
    _ = W4 m ρ c (Proc.devRef .tc main_arg3) (ValueIdx.ix1 q) :=
        (congrFun (W5_main_v45 m ρ c) (Gcn.row0 q)).trans (shapeCast_a_1a_apply _ _ _ q)
    _ = m ((c : Thread nD τ).loc main_arg3) (ValueIdx.ix1 q) := congrFun (Keep.W4_arg3 m ρ c) (ValueIdx.ix1 q)

/-! ## The second layer's bias -/

/-- At the fourth region's entry the second layer's `[1, 192]` bias array is the reshape of what the bias
    vector's buffer held when the host stretch before it began. -/
theorem W8_main_v60 :
    (W8 m ρ c (Proc.devRef .tc main_v60) : S1x192.Idx → Elt F .f32)
      = shapeCast S1x192 (W7 m ρ c (Proc.devRef .tc main_arg5) : S192.Idx → Elt F .f32) Facts₀.shapeCasts_S192_S1x192 := by
  dsimp only [W8, hostOps3]
  after_results
  rfl

/-- Its one row at column `q` is the bias vector's entry `q` as launched. -/
theorem W8_bias (q : Fin 192) :
    W8 m ρ c (Proc.devRef .tc main_v60) (Gcn.row0 q) = m ((c : Thread nD τ).loc main_arg5) (ValueIdx.ix1 q) :=
  calc W8 m ρ c (Proc.devRef .tc main_v60) (Gcn.row0 q)
    _ = W7 m ρ c (Proc.devRef .tc main_arg5) (ValueIdx.ix1 q) :=
        (congrFun (W8_main_v60 m ρ c) (Gcn.row0 q)).trans (shapeCast_a_1a_apply _ _ _ q)
    _ = m ((c : Thread nD τ).loc main_arg5) (ValueIdx.ix1 q) := congrFun (Keep.W7_arg5 m ρ c) (ValueIdx.ix1 q)

/-! ## The third layer's bias -/

/-- At the sixth region's entry the third layer's `[1, 128]` bias array is the reshape of what the bias
    vector's buffer held when the host stretch before it began. -/
theorem W11_main_v75 :
    (W11 m ρ c (Proc.devRef .tc main_v75) : S1x128.Idx → Elt F .f32)
      = shapeCast S1x128 (W10 m ρ c (Proc.devRef .tc main_arg7) : S128.Idx → Elt F .f32) Facts₀.shapeCasts_S128_S1x128 := by
  dsimp only [W11, hostOps5]
  after_results
  rfl

/-- Its one row at column `q` is the bias vector's entry `q` as launched. -/
theorem W11_bias (q : Fin 128) :
    W11 m ρ c (Proc.devRef .tc main_v75) (Gcn.row0 q) = m ((c : Thread nD τ).loc main_arg7) (ValueIdx.ix1 q) :=
  calc W11 m ρ c (Proc.devRef .tc main_v75) (Gcn.row0 q)
    _ = W10 m ρ c (Proc.devRef .tc main_arg7) (ValueIdx.ix1 q) :=
        (congrFun (W11_main_v75 m ρ c) (Gcn.row0 q)).trans (shapeCast_a_1a_apply _ _ _ q)
    _ = m ((c : Thread nD τ).loc main_arg7) (ValueIdx.ix1 q) := congrFun (Keep.W10_arg7 m ρ c) (ValueIdx.ix1 q)

end Cert.KernelIdeal.BiasRows

end
-- ==== Proof.GluePrefix.lean ====
/-
  The edge bookkeeping both programs share, as the kernel's program leaves it before its first region.

  Before any layer runs, the host side builds three arrays from the edge list alone: the source node of every edge
  (the edge list's first row followed by one self-loop per node), the destination node of every edge (its second row
  followed by the self-loops), and the symmetric normalisation weight of every edge as a column (the in-degree of each
  node by a scatter-add of ones, its power `-1/2` where the degree is positive and zero elsewhere, gathered at the
  two ends of each edge and multiplied). The kernel's program performs exactly the reference's operations here, so
  each array is the reference's stage of the same name, as a function of the edge list: no operation is opened.

  The comparison goes stretch by stretch, so that no single step compares more than one stretch's operations: after
  the first stretch the two index arrays, the degree's positivity and its power; after the second the per-node
  factor; after the third the weight column, read off the earlier stages by name.
-/
import proofs.«126298_j45749991637478_1_alg».proof.Proof.Gen.KernelIdeal.Frame
import proofs.«126298_j45749991637478_1_alg».proof.Proof.Keep
import proofs.«126298_j45749991637478_1_alg».proof.Proof.RefRead
import Idealize.ShloMosaic.Lib.StableHlo.Run

set_option maxRecDepth 16384

noncomputable section

namespace Cert.KernelIdeal.Prefix

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

/-! ## After the first stretch -/

/-- The source node of every edge, self-loops appended, after the first stretch. -/
theorem W1_main_v3 :
    W1 m ρ c (Proc.devRef .tc main_v3) = Cert.ReferenceIdeal.Read.val_main_v3 (F := F) (m ((c : Thread nD τ).loc main_arg1)) := by
  dsimp only [W1, hostOps0]
  after_results
  rfl

/-- The destination node of every edge, self-loops appended, after the first stretch. -/
theorem W1_main_v6 :
    W1 m ρ c (Proc.devRef .tc main_v6) = Cert.ReferenceIdeal.Read.val_main_v6 (F := F) (m ((c : Thread nD τ).loc main_arg1)) := by
  dsimp only [W1, hostOps0]
  after_results
  rfl

/-- Where the in-degree is positive. -/
theorem W1_main_v12 :
    W1 m ρ c (Proc.devRef .tc main_v12) = Cert.ReferenceIdeal.Read.val_main_v12 (F := F) (m ((c : Thread nD τ).loc main_arg1)) := by
  dsimp only [W1, hostOps0]
  after_results
  rfl

/-- The in-degree to the power `-1/2`. -/
theorem W1_main_v14 :
    W1 m ρ c (Proc.devRef .tc main_v14) = Cert.ReferenceIdeal.Read.val_main_v14 (F := F) (m ((c : Thread nD τ).loc main_arg1)) := by
  dsimp only [W1, hostOps0]
  after_results
  rfl

/-- The zero the normalisation takes where the degree is not positive. -/
theorem W1_main_cst_3 :
    W1 m ρ c (Proc.devRef .tc main_cst_3) = Cert.ReferenceIdeal.Read.val_main_cst_3 (F := F) := by
  dsimp only [W1, hostOps0]
  after_results
  rfl

/-! ## After the second stretch -/

/-- The per-node factor: the in-degree to the power `-1/2` where it is positive, zero elsewhere. -/
theorem W2_main_v15 :
    W2 m ρ c (Proc.devRef .tc main_v15) = Cert.ReferenceIdeal.Read.val_main_v15 (F := F) (m ((c : Thread nD τ).loc main_arg1)) := by
  have h12 := W1_main_v12 m ρ c
  have h14 := W1_main_v14 m ρ c
  have h0 := W1_main_cst_3 m ρ c
  dsimp only [W2, hostOps0_1]
  generalize W1 m ρ c = V at h12 h14 h0 ⊢
  after_results
  rw [h12, h14, h0]
  rfl

/-- The source nodes are not written by the second stretch. -/
theorem W2_main_v3 :
    W2 m ρ c (Proc.devRef .tc main_v3) = Cert.ReferenceIdeal.Read.val_main_v3 (F := F) (m ((c : Thread nD τ).loc main_arg1)) :=
  (Keep.across0_1 m ρ c main_v3 (by decide)).trans (W1_main_v3 m ρ c)

/-- Nor are the destination nodes. -/
theorem W2_main_v6 :
    W2 m ρ c (Proc.devRef .tc main_v6) = Cert.ReferenceIdeal.Read.val_main_v6 (F := F) (m ((c : Thread nD τ).loc main_arg1)) :=
  (Keep.across0_1 m ρ c main_v6 (by decide)).trans (W1_main_v6 m ρ c)

/-! ## At the first region's entry -/

/-- The source node of every edge, self-loops appended. -/
theorem W3_src :
    W3 m ρ c (Proc.devRef .tc main_v3) = Cert.ReferenceIdeal.Read.val_main_v3 (F := F) (m ((c : Thread nD τ).loc main_arg1)) :=
  (Keep.across0_2 m ρ c main_v3 (by decide)).trans (W2_main_v3 m ρ c)

/-- The destination node of every edge, self-loops appended. -/
theorem W3_dst :
    W3 m ρ c (Proc.devRef .tc main_v6) = Cert.ReferenceIdeal.Read.val_main_v6 (F := F) (m ((c : Thread nD τ).loc main_arg1)) :=
  (Keep.across0_2 m ρ c main_v6 (by decide)).trans (W2_main_v6 m ρ c)

/-- The normalisation weight of every edge, as a column. -/
theorem W3_norm :
    W3 m ρ c (Proc.devRef .tc main_v31) = Cert.ReferenceIdeal.Read.val_main_v39 (F := F) (m ((c : Thread nD τ).loc main_arg1)) := by
  have h15 := W2_main_v15 m ρ c
  have h3 := W2_main_v3 m ρ c
  have h6 := W2_main_v6 m ρ c
  dsimp only [W3, hostOps0_2]
  generalize W2 m ρ c = V at h15 h3 h6 ⊢
  after_results_simp
  rw [h15, h3, h6]
  rfl

end Cert.KernelIdeal.Prefix

end
-- ==== Proof.GlueAgg.lean ====
/-
  The aggregation over the edges, which both programs perform with the same operations.

  Between a layer's matrix product and its bias the kernel's program, like the reference, gathers the product's rows
  at the edges' sources (negative node numbers wrapped by the node count first), multiplies every gathered row by
  its edge's weight, and adds it into the row of the edge's destination. From ANY buffer contents in which the
  layer's product, the sources, the destinations and the weight column are the reference's stages, what that stretch
  of host operations leaves in the aggregate's buffer is the reference's aggregate stage: the operations are the
  same, on the same arrays, so the gather and the scatter-add are compared as whole terms and never opened. The
  statement holds at every float instance.
-/
import proofs.«126298_j45749991637478_1_alg».proof.Proof.Gen.KernelIdeal.Frame
import proofs.«126298_j45749991637478_1_alg».proof.Proof.RefRead
import Idealize.ShloMosaic.Lib.StableHlo.Run

set_option maxRecDepth 16384

noncomputable section

namespace Cert.KernelIdeal.Agg

open Idealize.ShloMosaic Idealize.ShloMosaic.TcCoe Idealize.SL.Sem Idealize.ShloMosaic.StableHlo
open Cert.KernelIdeal Cert.KernelIdeal.Gen

variable {F : FTy → Type} [FloatOps F]

set_option maxHeartbeats 3200000 in
/-- Layer one's aggregate, from any contents whose linear output, sources, destinations and edge weights are the reference's: the gather, the product with the weights and the scatter-add are the reference's own operations on the same arrays. -/
theorem agg1_of (V : Valuation τ sig (Elt F)) (x0 : (⟨Cert.ReferenceIdeal.S50000x256, .f32⟩ : BufTy).Contents (Elt F)) (x1 : (⟨Cert.ReferenceIdeal.S2x400000, .i32⟩ : BufTy).Contents (Elt F)) (x2 : (⟨Cert.ReferenceIdeal.S256x192, .f32⟩ : BufTy).Contents (Elt F))
    (elin : V (Proc.devRef .tc main_v32) = Cert.ReferenceIdeal.Read.val_main_v31 (F := F) x0 x2)
    (esrc : V (Proc.devRef .tc main_v3) = Cert.ReferenceIdeal.Read.val_main_v3 (F := F) x1)
    (edst : V (Proc.devRef .tc main_v6) = Cert.ReferenceIdeal.Read.val_main_v6 (F := F) x1)
    (ew : V (Proc.devRef .tc main_v31) = Cert.ReferenceIdeal.Read.val_main_v39 (F := F) x1) :
    StableHlo.after hostOps1 V (Proc.devRef .tc main_v44) = Cert.ReferenceIdeal.Read.val_main_v44 (F := F) x0 x1 x2 := by
  unfold hostOps1
  after_results
  rw [elin, esrc, edst, ew]
  rfl

set_option maxHeartbeats 3200000 in
/-- Layer two's aggregate, likewise. -/
theorem agg2_of (V : Valuation τ sig (Elt F)) (x0 : (⟨Cert.ReferenceIdeal.S50000x256, .f32⟩ : BufTy).Contents (Elt F)) (x1 : (⟨Cert.ReferenceIdeal.S2x400000, .i32⟩ : BufTy).Contents (Elt F)) (x2 : (⟨Cert.ReferenceIdeal.S256x192, .f32⟩ : BufTy).Contents (Elt F)) (x3 : (⟨Cert.ReferenceIdeal.S192, .f32⟩ : BufTy).Contents (Elt F)) (x4 : (⟨Cert.ReferenceIdeal.S192x192, .f32⟩ : BufTy).Contents (Elt F))
    (elin : V (Proc.devRef .tc main_v47) = Cert.ReferenceIdeal.Read.val_main_v49 (F := F) x0 x1 x2 x3 x4)
    (esrc : V (Proc.devRef .tc main_v3) = Cert.ReferenceIdeal.Read.val_main_v3 (F := F) x1)
    (edst : V (Proc.devRef .tc main_v6) = Cert.ReferenceIdeal.Read.val_main_v6 (F := F) x1)
    (ew : V (Proc.devRef .tc main_v31) = Cert.ReferenceIdeal.Read.val_main_v39 (F := F) x1) :
    StableHlo.after hostOps3 V (Proc.devRef .tc main_v59) = Cert.ReferenceIdeal.Read.val_main_v62 (F := F) x0 x1 x2 x3 x4 := by
  unfold hostOps3
  after_results
  rw [elin, esrc, edst, ew]
  rfl

set_option maxHeartbeats 3200000 in
/-- Layer three's aggregate, likewise. -/
theorem agg3_of (V : Valuation τ sig (Elt F)) (x0 : (⟨Cert.ReferenceIdeal.S50000x256, .f32⟩ : BufTy).Contents (Elt F)) (x1 : (⟨Cert.ReferenceIdeal.S2x400000, .i32⟩ : BufTy).Contents (Elt F)) (x2 : (⟨Cert.ReferenceIdeal.S256x192, .f32⟩ : BufTy).Contents (Elt F)) (x3 : (⟨Cert.ReferenceIdeal.S192, .f32⟩ : BufTy).Contents (Elt F)) (x4 : (⟨Cert.ReferenceIdeal.S192x192, .f32⟩ : BufTy).Contents (Elt F)) (x5 : (⟨Cert.ReferenceIdeal.S192, .f32⟩ : BufTy).Contents (Elt F)) (x6 : (⟨Cert.ReferenceIdeal.S192x128, .f32⟩ : BufTy).Contents (Elt F))
    (elin : V (Proc.devRef .tc main_v62) = Cert.ReferenceIdeal.Read.val_main_v67 (F := F) x0 x1 x2 x3 x4 x5 x6)
    (esrc : V (Proc.devRef .tc main_v3) = Cert.ReferenceIdeal.Read.val_main_v3 (F := F) x1)
    (edst : V (Proc.devRef .tc main_v6) = Cert.ReferenceIdeal.Read.val_main_v6 (F := F) x1)
    (ew : V (Proc.devRef .tc main_v31) = Cert.ReferenceIdeal.Read.val_main_v39 (F := F) x1) :
    StableHlo.after hostOps5 V (Proc.devRef .tc main_v74) = Cert.ReferenceIdeal.Read.val_main_v80 (F := F) x0 x1 x2 x3 x4 x5 x6 := by
  unfold hostOps5
  after_results
  rw [elin, esrc, edst, ew]
  rfl

end Cert.KernelIdeal.Agg

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.RegionMM0.lean ====
/-
  The first layer's matrix product: what the first region leaves in its output array.

  The region multiplies the node-feature array, 50000 rows of 256 features, by the whole weight matrix: grid point `t`
  loads rows `5000 t … 5000 t + 4999` of the features and the whole `[256, 192]` weight matrix, rounds both to
  bf16 (the identity on extended reals), multiplies them into a zero accumulator and writes the `[5000, 192]`
  product back as rows `5000 t …` of the output. Entry `(p, q)` of that block is `∑ k, x (5000 t + p, k) * w (k, q)`,
  which is entry `(5000 t + p, q)` of the one matrix product `Gcn.mm x w` of the two arrays as the region finds
  them; the ten blocks tile the output's 50000 rows, so after the region the output array IS `Gcn.mm x w`.
-/
import proofs.«126298_j45749991637478_1_alg».proof.Proof.Gen.KernelIdeal.Frame
import proofs.«126298_j45749991637478_1_alg».proof.Proof.Spec
import proofs.«126298_j45749991637478_1_alg».proof.Proof.LibMatmul
import Idealize.ShloMosaic.Lib.Pipeline.Value
import Idealize.ShloMosaic.Lib.ValueIdx

set_option maxRecDepth 16384

noncomputable section

namespace Cert.KernelIdeal.MM0

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are a plain product's: rows times columns, one contracted axis, no batch axis. -/
theorem plain : PlainMatmul.IsPlain dot_S5000x256_S256x192_S5000x192_1_0_0_1_n_n := ⟨rfl, rfl, rfl, rfl, rfl, rfl⟩

/-- The body's product at the entry `(p, q)` of its block: the sum over the contracted axis. The two roundings to
    bf16 are the identity on extended reals and the accumulator is the zero matrix. -/
theorem pay_apply (x0 : Vec Ideal S5000x256 .f32) (x1 : Vec Ideal S256x192 .f32) (p : Fin 5000) (q : Fin 192) :
    k0_pay1 x0 x1 (ix2 p q) = ∑ k : Fin 256, x0 (ix2 p k) * x1 (ix2 k q) := by
  unfold k0_pay1
  exact PlainMatmul.apply plain none _ _ p q

/-- A block whose rows are rows `5000 r + p` of `a0`, times the whole of `a1`, is rows `5000 r + p` of the product. -/
theorem block_apply (a0 : FVec Ideal (⟨2, ![50000, 256]⟩ : Shape) .f32) (a1 : FVec Ideal (⟨2, ![256, 192]⟩ : Shape) .f32)
    (x0 : Vec Ideal S5000x256 .f32) (x1 : Vec Ideal S256x192 .f32) (r : ℕ) (p : Fin 5000) (q : Fin 192)
    (hr : r * 5000 + 1 * p.val < 50000)
    (h0 : ∀ k : Fin 256, x0 (ix2 p k) = a0 (ix2 ⟨r * 5000 + 1 * p.val, hr⟩ k))
    (h1 : ∀ k : Fin 256, x1 (ix2 k q) = a1 (ix2 k q)) :
    k0_pay1 x0 x1 (ix2 p q) = Gcn.mm a0 a1 (ix2 ⟨r * 5000 + 1 * p.val, hr⟩ q) := by
  rw [pay_apply, Gcn.mm_apply]
  exact Finset.sum_congr rfl fun k _ => by rw [h0 k, h1 k]

/-- The printed index maps over the grid: the feature block and the output block of point `t` are block `t` of their
    arrays' rows, the weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two arrays as the region finds them. -/
theorem flushed_eq (c : Dev nD) (t : Fin cfg0.N) :
    (dat0 V c).flushed 2 t = ((cfg0.win 2).blk t).view.read (Elt Ideal) (Gcn.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x192) hz]
  obtain ⟨e0, e1, e2, e3, e4, e5⟩ := idx_facts t
  funext j
  have hj0 : (j 0).val < 5000 := (j 0).isLt
  have hj1 : (j 1).val < 192 := (j 1).isLt
  have ht : t.val < 10 := lt_of_lt_of_eq t.isLt N_0
  have hr : t.val * 5000 + 1 * (j 0).val < 50000 := by omega
  have hemb : ((cfg0.win 2).blk t).view.emb j
      = ix2 (⟨t.val * 5000 + 1 * (j 0).val, hr⟩ : Fin 50000) (⟨(j 1).val, hj1⟩ : Fin 192) := by
    funext a; apply Fin.ext
    match a with
    | ⟨0, _⟩ => show win0_2.index t (0 : Fin 2) * 5000 + 1 * (j 0).val = t.val * 5000 + 1 * (j 0).val; rw [e4]
    | ⟨1, _⟩ => show win0_2.index t (1 : Fin 2) * 192 + 1 * (j 1).val = (j 1).val; rw [e5]; omega
  have hjx : j = ix2 (⟨(j 0).val, hj0⟩ : Fin 5000) (⟨(j 1).val, hj1⟩ : Fin 192) := by
    funext a; match a with | ⟨0, _⟩ => rfl | ⟨1, _⟩ => rfl
  show k0_pay1 (iblk0 V c 0 t) (iblk0 V c 1 t) j
    = Gcn.mm (V c main_arg0) (V c main_arg2) (((cfg0.win 2).blk t).view.emb j)
  rw [hemb]
  refine (congrArg (k0_pay1 (iblk0 V c 0 t) (iblk0 V c 1 t)) hjx).trans ?_
  refine block_apply (V c main_arg0) (V c main_arg2) (iblk0 V c 0 t) (iblk0 V c 1 t) t.val
    ⟨(j 0).val, hj0⟩ ⟨(j 1).val, hj1⟩ hr (fun k => ?_) (fun k => ?_)
  · -- row `p` of the feature block is row `5000 t + p` of the feature array
    show V c main_arg0 (((cfg0.win 0).blk t).view.emb (ix2 (⟨(j 0).val, hj0⟩ : Fin 5000) k)) = _
    refine congrArg (V c main_arg0) ?_
    funext a; apply Fin.ext
    match a with
    | ⟨0, _⟩ => show win0_0.index t (0 : Fin 2) * 5000 + 1 * (j 0).val = t.val * 5000 + 1 * (j 0).val; rw [e0]
    | ⟨1, _⟩ => show win0_0.index t (1 : Fin 2) * 256 + 1 * k.val = k.val; rw [e1]; omega
  · -- the weight block is the whole weight matrix
    show V c main_arg2 (((cfg0.win 1).blk t).view.emb (ix2 k (⟨(j 1).val, hj1⟩ : Fin 192))) = _
    refine congrArg (V c main_arg2) ?_
    funext a; apply Fin.ext
    match a with
    | ⟨0, _⟩ => show win0_1.index t (0 : Fin 2) * 256 + 1 * k.val = k.val; rw [e2]; omega
    | ⟨1, _⟩ => show win0_1.index t (1 : Fin 2) * 192 + 1 * (j 1).val = (j 1).val; rw [e3]; omega

/-- An index of the output array is in point `t`'s block iff each coordinate is in the block's range on its axis. -/
theorem mem_blk (t : Fin cfg0.N) (i : S50000x192.Idx) :
    i ∈ ((cfg0.win 2).blk t).view.set ↔ ∀ a : Fin 2, win0_2.index t a * S5000x192.size a ≤ (i a).val
      ∧ (i a).val < win0_2.index t a * S5000x192.size a + S5000x192.size a := by
  show i ∈ ((View.whole main_v32).slice (win0_2.rect t)).set ↔ _
  rw [View.set_slice_whole, Rect.mem_set_unit]
  exact Iff.rfl

/-- The ten blocks tile the output's rows: row `r` is in the block of point `r / 5000`. -/
theorem cover (i : S50000x192.Idx) :
    ∃ t : Fin cfg0.N, (cfg0.win 2).flush t = true ∧ i ∈ ((cfg0.win 2).blk t).view.set := by
  have hi0 : (i 0).val < 50000 := (i 0).isLt
  have hi1 : (i 1).val < 192 := (i 1).isLt
  have hN : (i 0).val / 5000 < grid0.N := by rw [N_0]; omega
  obtain ⟨-, -, -, -, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 192 ≤ (i 1).val
      ∧ (i 1).val < win0_2.index ⟨(i 0).val / 5000, hN⟩ (1 : Fin 2) * 192 + 192
    rw [e5]; omega

/-- THE OUTPUT ARRAY after the region: the product of the two input arrays as the region finds them. -/
theorem final (c : Dev nD) : (dat0 V c).arrAt 2 cfg0.N = Gcn.mm (V c main_arg0) (V c main_arg2) :=
  (dat0 V c).arrAt_eq_of_cover 2 _ (fun t _ => flushed_eq V c t) cover

end Cert.KernelIdeal.MM0

end
-- ==== Proof.RegionBias1.lean ====
/-
  Region 1 of the graph convolution (first layer's bias and activation): after the region's run its output array is ONE
  whole-array function of its two input arrays, whatever the buffers hold when the region is entered. The body adds
  the bias row to each row of a block of 5000 rows of the aggregate and takes the maximum with zero; the ten blocks tile
  the 50000 rows, so the output array is `Gcn.biasRelu` of the aggregate array and the bias row.
-/
import proofs.«126298_j45749991637478_1_alg».proof.Proof.Gen.KernelIdeal.Frame
import proofs.«126298_j45749991637478_1_alg».proof.Proof.Spec
import Idealize.ShloMosaic.Lib.Pipeline.Value
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

-- the buffer contents when the region is entered: arbitrary
variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The body's arithmetic at one entry of a block -/

/-- Entry `(p, q)` of what the body stores: entry `(p, q)` of the aggregate block plus entry `q` of the bias row,
    then the maximum with zero. The two shape casts are onto the same shape; the row is broadcast over the rows. -/
theorem pay_apply (x0 : Vec Ideal S5000x192 .f32) (x1 : Vec Ideal S1x192 .f32) (p : Fin 5000) (q : Fin 192) :
    k1_pay1 x0 x1 (ix2 p q)
      = max (x0 (ix2 p q) + x1 (ix2 ⟨0, Nat.one_pos⟩ q)) (Ideal.ofBits .f32 0x00000000#32) := by
  unfold k1_pay1
  simp only [shapeCast_self]
  rw [maximumf_apply, addf_apply, broadcast_apply, broadcastTo_1b_ab_apply]
  rfl

/-- The same entry against the whole arrays: if the aggregate block's entry `y` is the aggregate array's entry `i`
    and the bias block's entry in `y`'s column is the bias array's entry in `i`'s column, the body's entry `y` is
    entry `i` of the whole-array function. -/
theorem pay_point (x0 : Vec Ideal S5000x192 .f32) (x1 : Vec Ideal S1x192 .f32)
    (X : FVec Ideal S50000x192 .f32) (b : FVec Ideal S1x192 .f32) (y : S5000x192.Idx) (i : S50000x192.Idx)
    (hx : x0 y = X i) (hb : x1 (ix2 ⟨0, Nat.one_pos⟩ (y 1)) = b (Gcn.row0 (i 1))) :
    k1_pay1 x0 x1 y = Gcn.biasRelu X b i := by
  obtain ⟨p, q, rfl⟩ : ∃ (p : Fin 5000) (q : Fin 192), y = ix2 p q := ⟨y 0, y 1, eq_ix2 y⟩
  rw [pay_apply, hx]
  exact congrArg (fun v => max (X i + v) (Ideal.ofBits .f32 0x00000000#32)) hb

/-! ## Where each window's block sits at a grid point -/

/-- At point `t` the aggregate's and the output's block index is `(t, 0)`, the bias row's `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the two input arrays as the region finds
    them: rows `5000 t … 5000 t + 4999`, every column. -/
theorem flushed_eq (c : Dev nD) (t : Fin cfg1.N) :
    (dat1 (F := Ideal) V c).flushed 2 t
      = ((cfg1.win 2).blk t).view.read (Elt Ideal) (Gcn.biasRelu (V c main_v44) (V c main_v45)) := by
  show (cfg1.win 2).cut (grid1.coords t) ((dat1 V c).after 2 t) = _
  rw [after1_2]
  unfold out1_2
  rw [View.canon_unit_zero hz]
  simp only [View.ld_unit_zero (S := S5000x192) hz, View.ld_unit_zero (S := S1x192) hz]
  obtain ⟨e0, e1, e2, e3, e4, e5⟩ := idx_facts t
  funext j
  show k1_pay1 (iblk1 V c 0 t) (iblk1 V c 1 t) j
    = Gcn.biasRelu (V c main_v44) (V c main_v45) (((cfg1.win 2).blk t).view.emb j)
  refine pay_point _ _ _ _ j _ ?_ ?_
  · -- the aggregate's block and the output's block sit at the same place
    show V c main_v44 (((cfg1.win 0).blk t).view.emb j) = V c main_v44 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 192 + 1 * (j 1).val = win1_2.index t (1 : Fin 2) * 192 + 1 * (j 1).val; omega
  · -- the bias block is the whole bias row; the output block spans every column
    show V c main_v45 (((cfg1.win 1).blk t).view.emb (ix2 ⟨0, Nat.one_pos⟩ (j 1)))
      = V c main_v45 (Gcn.row0 ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 192 + 1 * (j 1).val = win1_2.index t (1 : Fin 2) * 192 + 1 * (j 1).val; omega

/-! ## The blocks tile the array -/

/-- An entry of the array is in point `t`'s block iff each coordinate is in the block's range on its axis. -/
theorem mem_blk (t : Fin cfg1.N) (i : S50000x192.Idx) :
    i ∈ ((cfg1.win 2).blk t).view.set ↔ ∀ a : Fin 2, win1_2.index t a * S5000x192.size a ≤ (i a).val
      ∧ (i a).val < win1_2.index t a * S5000x192.size a + S5000x192.size a := by
  show i ∈ ((View.whole main_v46).slice (win1_2.rect t)).set ↔ _
  rw [View.set_slice_whole, Rect.mem_set_unit]
  exact Iff.rfl

/-- Row `r` lies in the block of point `r / 5000`. -/
theorem cover (i : S50000x192.Idx) :
    ∃ t : Fin cfg1.N, (cfg1.win 2).flush t = true ∧ i ∈ ((cfg1.win 2).blk t).view.set := by
  have hi0 : (i 0).val < 50000 := (i 0).isLt
  have hi1 : (i 1).val < 192 := (i 1).isLt
  have hN : grid1.N = 10 := N_1
  have hlt : (i 0).val / 5000 < cfg1.N := by show _ < grid1.N; rw [hN]; omega
  obtain ⟨-, -, -, -, e4, e5⟩ := idx_facts ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 192 ≤ (i 1).val
      ∧ (i 1).val < win1_2.index ⟨(i 0).val / 5000, hlt⟩ (1 : Fin 2) * 192 + 192
    omega

/-! ## The output array after the region -/

/-- After the region's run the output array is the bias row added to every row of the aggregate, then the maximum with
    zero, of the two input arrays as the region finds them. -/
theorem final (c : Dev nD) :
    (dat1 (F := Ideal) V c).arrAt 2 cfg1.N = Gcn.biasRelu (V c main_v44) (V c main_v45) :=
  (dat1 V c).arrAt_eq_of_cover 2 _ (fun t _ => flushed_eq V c t) cover

end Cert.KernelIdeal.Bias1

end
-- ==== Proof.RegionMM2.lean ====
/-
  The second layer's matrix product: what the third region leaves in its output array.

  The region multiplies the node-feature array, 50000 rows of 192 features, by the whole weight matrix: grid point `t`
  loads rows `5000 t … 5000 t + 4999` of the features and the whole `[192, 192]` weight matrix, rounds both to
  bf16 (the identity on extended reals), multiplies them into a zero accumulator and writes the `[5000, 192]`
  product back as rows `5000 t …` of the output. Entry `(p, q)` of that block is `∑ k, x (5000 t + p, k) * w (k, q)`,
  which is entry `(5000 t + p, q)` of the one matrix product `Gcn.mm x w` of the two arrays as the region finds
  them; the ten blocks tile the output's 50000 rows, so after the region the output array IS `Gcn.mm x w`.
-/
import proofs.«126298_j45749991637478_1_alg».proof.Proof.Gen.KernelIdeal.Frame
import proofs.«126298_j45749991637478_1_alg».proof.Proof.Spec
import proofs.«126298_j45749991637478_1_alg».proof.Proof.LibMatmul
import Idealize.ShloMosaic.Lib.Pipeline.Value
import Idealize.ShloMosaic.Lib.ValueIdx

set_option maxRecDepth 16384

noncomputable section

namespace Cert.KernelIdeal.MM2

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are a plain product's: rows times columns, one contracted axis, no batch axis. -/
theorem plain : PlainMatmul.IsPlain dot_S5000x192_S192x192_S5000x192_1_0_0_1_n_n := ⟨rfl, rfl, rfl, rfl, rfl, rfl⟩

/-- The body's product at the entry `(p, q)` of its block: the sum over the contracted axis. The cast of the feature block onto its own shape and the two roundings to
    bf16 are the identity on extended reals and the accumulator is the zero matrix. -/
theorem pay_apply (x0 : Vec Ideal S5000x192 .f32) (x1 : Vec Ideal S192x192 .f32) (p : Fin 5000) (q : Fin 192) :
    k2_pay1 x0 x1 (ix2 p q) = ∑ k : Fin 192, x0 (ix2 p k) * x1 (ix2 k q) := by
  unfold k2_pay1
  refine (PlainMatmul.apply plain none _ _ p q).trans ?_
  refine Finset.sum_congr rfl fun k _ => ?_
  show (shapeCast S5000x192 x0 shapeCasts_S5000x192_S5000x192) (ix2 p k) * x1 (ix2 k q) = x0 (ix2 p k) * x1 (ix2 k q)
  rw [shapeCast_self]

/-- A block whose rows are rows `5000 r + p` of `a0`, times the whole of `a1`, is rows `5000 r + p` of the product. -/
theorem block_apply (a0 : FVec Ideal (⟨2, ![50000, 192]⟩ : Shape) .f32) (a1 : FVec Ideal (⟨2, ![192, 192]⟩ : Shape) .f32)
    (x0 : Vec Ideal S5000x192 .f32) (x1 : Vec Ideal S192x192 .f32) (r : ℕ) (p : Fin 5000) (q : Fin 192)
    (hr : r * 5000 + 1 * p.val < 50000)
    (h0 : ∀ k : Fin 192, x0 (ix2 p k) = a0 (ix2 ⟨r * 5000 + 1 * p.val, hr⟩ k))
    (h1 : ∀ k : Fin 192, x1 (ix2 k q) = a1 (ix2 k q)) :
    k2_pay1 x0 x1 (ix2 p q) = Gcn.mm a0 a1 (ix2 ⟨r * 5000 + 1 * p.val, hr⟩ q) := by
  rw [pay_apply, Gcn.mm_apply]
  exact Finset.sum_congr rfl fun k _ => by rw [h0 k, h1 k]

/-- The printed index maps over the grid: the feature block and the output block of point `t` are block `t` of their
    arrays' rows, the weight matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the product of the two arrays as the region finds them. -/
theorem flushed_eq (c : Dev nD) (t : Fin cfg2.N) :
    (dat2 V c).flushed 2 t = ((cfg2.win 2).blk t).view.read (Elt Ideal) (Gcn.mm (V c main_v46) (V c main_arg4)) := by
  show (cfg2.win 2).cut (grid2.coords t) ((dat2 V c).after 2 t) = _
  rw [after2_2]
  unfold out2_2
  rw [View.canon_unit_zero hz]
  simp only [View.ld_unit_zero (S := S5000x192) hz, View.ld_unit_zero (S := S192x192) hz]
  obtain ⟨e0, e1, e2, e3, e4, e5⟩ := idx_facts t
  funext j
  have hj0 : (j 0).val < 5000 := (j 0).isLt
  have hj1 : (j 1).val < 192 := (j 1).isLt
  have ht : t.val < 10 := lt_of_lt_of_eq t.isLt N_2
  have hr : t.val * 5000 + 1 * (j 0).val < 50000 := by omega
  have hemb : ((cfg2.win 2).blk t).view.emb j
      = ix2 (⟨t.val * 5000 + 1 * (j 0).val, hr⟩ : Fin 50000) (⟨(j 1).val, hj1⟩ : Fin 192) := by
    funext a; apply Fin.ext
    match a with
    | ⟨0, _⟩ => show win2_2.index t (0 : Fin 2) * 5000 + 1 * (j 0).val = t.val * 5000 + 1 * (j 0).val; rw [e4]
    | ⟨1, _⟩ => show win2_2.index t (1 : Fin 2) * 192 + 1 * (j 1).val = (j 1).val; rw [e5]; omega
  have hjx : j = ix2 (⟨(j 0).val, hj0⟩ : Fin 5000) (⟨(j 1).val, hj1⟩ : Fin 192) := by
    funext a; match a with | ⟨0, _⟩ => rfl | ⟨1, _⟩ => rfl
  show k2_pay1 (iblk2 V c 0 t) (iblk2 V c 1 t) j
    = Gcn.mm (V c main_v46) (V c main_arg4) (((cfg2.win 2).blk t).view.emb j)
  rw [hemb]
  refine (congrArg (k2_pay1 (iblk2 V c 0 t) (iblk2 V c 1 t)) hjx).trans ?_
  refine block_apply (V c main_v46) (V c main_arg4) (iblk2 V c 0 t) (iblk2 V c 1 t) t.val
    ⟨(j 0).val, hj0⟩ ⟨(j 1).val, hj1⟩ hr (fun k => ?_) (fun k => ?_)
  · -- row `p` of the feature block is row `5000 t + p` of the feature array
    show V c main_v46 (((cfg2.win 0).blk t).view.emb (ix2 (⟨(j 0).val, hj0⟩ : Fin 5000) k)) = _
    refine congrArg (V c main_v46) ?_
    funext a; apply Fin.ext
    match a with
    | ⟨0, _⟩ => show win2_0.index t (0 : Fin 2) * 5000 + 1 * (j 0).val = t.val * 5000 + 1 * (j 0).val; rw [e0]
    | ⟨1, _⟩ => show win2_0.index t (1 : Fin 2) * 192 + 1 * k.val = k.val; rw [e1]; omega
  · -- the weight block is the whole weight matrix
    show V c main_arg4 (((cfg2.win 1).blk t).view.emb (ix2 k (⟨(j 1).val, hj1⟩ : Fin 192))) = _
    refine congrArg (V c main_arg4) ?_
    funext a; apply Fin.ext
    match a with
    | ⟨0, _⟩ => show win2_1.index t (0 : Fin 2) * 192 + 1 * k.val = k.val; rw [e2]; omega
    | ⟨1, _⟩ => show win2_1.index t (1 : Fin 2) * 192 + 1 * (j 1).val = (j 1).val; rw [e3]; omega

/-- An index of the output array is in point `t`'s block iff each coordinate is in the block's range on its axis. -/
theorem mem_blk (t : Fin cfg2.N) (i : S50000x192.Idx) :
    i ∈ ((cfg2.win 2).blk t).view.set ↔ ∀ a : Fin 2, win2_2.index t a * S5000x192.size a ≤ (i a).val
      ∧ (i a).val < win2_2.index t a * S5000x192.size a + S5000x192.size a := by
  show i ∈ ((View.whole main_v47).slice (win2_2.rect t)).set ↔ _
  rw [View.set_slice_whole, Rect.mem_set_unit]
  exact Iff.rfl

/-- The ten blocks tile the output's rows: row `r` is in the block of point `r / 5000`. -/
theorem cover (i : S50000x192.Idx) :
    ∃ t : Fin cfg2.N, (cfg2.win 2).flush t = true ∧ i ∈ ((cfg2.win 2).blk t).view.set := by
  have hi0 : (i 0).val < 50000 := (i 0).isLt
  have hi1 : (i 1).val < 192 := (i 1).isLt
  have hN : (i 0).val / 5000 < grid2.N := by rw [N_2]; omega
  obtain ⟨-, -, -, -, e4, e5⟩ := idx_facts ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 192 ≤ (i 1).val
      ∧ (i 1).val < win2_2.index ⟨(i 0).val / 5000, hN⟩ (1 : Fin 2) * 192 + 192
    rw [e5]; omega

/-- THE OUTPUT ARRAY after the region: the product of the two input arrays as the region finds them. -/
theorem final (c : Dev nD) : (dat2 V c).arrAt 2 cfg2.N = Gcn.mm (V c main_v46) (V c main_arg4) :=
  (dat2 V c).arrAt_eq_of_cover 2 _ (fun t _ => flushed_eq V c t) cover

end Cert.KernelIdeal.MM2

end
-- ==== Proof.RegionBias3.lean ====
/-
  Region 3 of the graph convolution (second layer's bias and activation): after the region's run its output array is ONE
  whole-array function of its two input arrays, whatever the buffers hold when the region is entered. The body adds
  the bias row to each row of a block of 5000 rows of the aggregate and takes the maximum with zero; the ten blocks tile
  the 50000 rows, so the output array is `Gcn.biasRelu` of the aggregate array and the bias row.
-/
import proofs.«126298_j45749991637478_1_alg».proof.Proof.Gen.KernelIdeal.Frame
import proofs.«126298_j45749991637478_1_alg».proof.Proof.Spec
import Idealize.ShloMosaic.Lib.Pipeline.Value
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

-- the buffer contents when the region is entered: arbitrary
variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The body's arithmetic at one entry of a block -/

/-- Entry `(p, q)` of what the body stores: entry `(p, q)` of the aggregate block plus entry `q` of the bias row,
    then the maximum with zero. The two shape casts are onto the same shape; the row is broadcast over the rows. -/
theorem pay_apply (x0 : Vec Ideal S5000x192 .f32) (x1 : Vec Ideal S1x192 .f32) (p : Fin 5000) (q : Fin 192) :
    k3_pay1 x0 x1 (ix2 p q)
      = max (x0 (ix2 p q) + x1 (ix2 ⟨0, Nat.one_pos⟩ q)) (Ideal.ofBits .f32 0x00000000#32) := by
  unfold k3_pay1
  simp only [shapeCast_self]
  rw [maximumf_apply, addf_apply, broadcast_apply, broadcastTo_1b_ab_apply]
  rfl

/-- The same entry against the whole arrays: if the aggregate block's entry `y` is the aggregate array's entry `i`
    and the bias block's entry in `y`'s column is the bias array's entry in `i`'s column, the body's entry `y` is
    entry `i` of the whole-array function. -/
theorem pay_point (x0 : Vec Ideal S5000x192 .f32) (x1 : Vec Ideal S1x192 .f32)
    (X : FVec Ideal S50000x192 .f32) (b : FVec Ideal S1x192 .f32) (y : S5000x192.Idx) (i : S50000x192.Idx)
    (hx : x0 y = X i) (hb : x1 (ix2 ⟨0, Nat.one_pos⟩ (y 1)) = b (Gcn.row0 (i 1))) :
    k3_pay1 x0 x1 y = Gcn.biasRelu X b i := by
  obtain ⟨p, q, rfl⟩ : ∃ (p : Fin 5000) (q : Fin 192), y = ix2 p q := ⟨y 0, y 1, eq_ix2 y⟩
  rw [pay_apply, hx]
  exact congrArg (fun v => max (X i + v) (Ideal.ofBits .f32 0x00000000#32)) hb

/-! ## Where each window's block sits at a grid point -/

/-- At point `t` the aggregate's and the output's block index is `(t, 0)`, the bias row's `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function of the two input arrays as the region finds
    them: rows `5000 t … 5000 t + 4999`, every column. -/
theorem flushed_eq (c : Dev nD) (t : Fin cfg3.N) :
    (dat3 (F := Ideal) V c).flushed 2 t
      = ((cfg3.win 2).blk t).view.read (Elt Ideal) (Gcn.biasRelu (V c main_v59) (V c main_v60)) := by
  show (cfg3.win 2).cut (grid3.coords t) ((dat3 V c).after 2 t) = _
  rw [after3_2]
  unfold out3_2
  rw [View.canon_unit_zero hz]
  simp only [View.ld_unit_zero (S := S5000x192) hz, View.ld_unit_zero (S := S1x192) hz]
  obtain ⟨e0, e1, e2, e3, e4, e5⟩ := idx_facts t
  funext j
  show k3_pay1 (iblk3 V c 0 t) (iblk3 V c 1 t) j
    = Gcn.biasRelu (V c main_v59) (V c main_v60) (((cfg3.win 2).blk t).view.emb j)
  refine pay_point _ _ _ _ j _ ?_ ?_
  · -- the aggregate's block and the output's block sit at the same place
    show V c main_v59 (((cfg3.win 0).blk t).view.emb j) = V c main_v59 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 192 + 1 * (j 1).val = win3_2.index t (1 : Fin 2) * 192 + 1 * (j 1).val; omega
  · -- the bias block is the whole bias row; the output block spans every column
    show V c main_v60 (((cfg3.win 1).blk t).view.emb (ix2 ⟨0, Nat.one_pos⟩ (j 1)))
      = V c main_v60 (Gcn.row0 ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 192 + 1 * (j 1).val = win3_2.index t (1 : Fin 2) * 192 + 1 * (j 1).val; omega

/-! ## The blocks tile the array -/

/-- An entry of the array is in point `t`'s block iff each coordinate is in the block's range on its axis. -/
theorem mem_blk (t : Fin cfg3.N) (i : S50000x192.Idx) :
    i ∈ ((cfg3.win 2).blk t).view.set ↔ ∀ a : Fin 2, win3_2.index t a * S5000x192.size a ≤ (i a).val
      ∧ (i a).val < win3_2.index t a * S5000x192.size a + S5000x192.size a := by
  show i ∈ ((View.whole main_v61).slice (win3_2.rect t)).set ↔ _
  rw [View.set_slice_whole, Rect.mem_set_unit]
  exact Iff.rfl

/-- Row `r` lies in the block of point `r / 5000`. -/
theorem cover (i : S50000x192.Idx) :
    ∃ t : Fin cfg3.N, (cfg3.win 2).flush t = true ∧ i ∈ ((cfg3.win 2).blk t).view.set := by
  have hi0 : (i 0).val < 50000 := (i 0).isLt
  have hi1 : (i 1).val < 192 := (i 1).isLt
  have hN : grid3.N = 10 := N_3
  have hlt : (i 0).val / 5000 < cfg3.N := by show _ < grid3.N; rw [hN]; omega
  obtain ⟨-, -, -, -, e4, e5⟩ := idx_facts ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 192 ≤ (i 1).val
      ∧ (i 1).val < win3_2.index ⟨(i 0).val / 5000, hlt⟩ (1 : Fin 2) * 192 + 192
    omega

/-! ## The output array after the region -/

/-- After the region's run the output array is the bias row added to every row of the aggregate, then the maximum with
    zero, of the two input arrays as the region finds them. -/
theorem final (c : Dev nD) :
    (dat3 (F := Ideal) V c).arrAt 2 cfg3.N = Gcn.biasRelu (V c main_v59) (V c main_v60) :=
  (dat3 V c).arrAt_eq_of_cover 2 _ (fun t _ => flushed_eq V c t) cover

end Cert.KernelIdeal.Bias3

end
-- ==== Proof.RegionMM4.lean ====
/-
  The third layer's matrix product: what the fifth region leaves in its output array.

  The region multiplies the node-feature array, 50000 rows of 192 features, by the whole weight matrix: grid point `t`
  loads rows `5000 t … 5000 t + 4999` of the features and the whole `[192, 128]` weight matrix, rounds both to
  bf16 (the identity on extended reals), multiplies them into a zero accumulator and writes the `[5000, 128]`
  product back as rows `5000 t …` of the output. Entry `(p, q)` of that block is `∑ k, x (5000 t + p, k) * w (k, q)`,
  which is entry `(5000 t + p, q)` of the one matrix product `Gcn.mm x w` of the two arrays as the region finds
  them; the ten blocks tile the output's 50000 rows, so after the region the output array IS `Gcn.mm x w`.
-/
import proofs.«126298_j45749991637478_1_alg».proof.Proof.Gen.KernelIdeal.Frame
import proofs.«126298_j45749991637478_1_alg».proof.Proof.Spec
import proofs.«126298_j45749991637478_1_alg».proof.Proof.LibMatmul
import Idealize.ShloMosaic.Lib.Pipeline.Value
import Idealize.ShloMosaic.Lib.ValueIdx

set_option maxRecDepth 16384

noncomputable section

namespace Cert.KernelIdeal.MM4

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are a plain product's: rows times columns, one contracted axis, no batch axis. -/
theorem plain : PlainMatmul.IsPlain dot_S5000x192_S192x128_S5000x128_1_0_0_1_n_n := ⟨rfl, rfl, rfl, rfl, rfl, rfl⟩

/-- The body's product at the entry `(p, q)` of its block: the sum over the contracted axis. The cast of the feature block onto its own shape and the two roundings to
    bf16 are the identity on extended reals and the accumulator is the zero matrix. -/
theorem pay_apply (x0 : Vec Ideal S5000x192 .f32) (x1 : Vec Ideal S192x128 .f32) (p : Fin 5000) (q : Fin 128) :
    k4_pay1 x0 x1 (ix2 p q) = ∑ k : Fin 192, x0 (ix2 p k) * x1 (ix2 k q) := by
  unfold k4_pay1
  refine (PlainMatmul.apply plain none _ _ p q).trans ?_
  refine Finset.sum_congr rfl fun k _ => ?_
  show (shapeCast S5000x192 x0 shapeCasts_S5000x192_S5000x192) (ix2 p k) * x1 (ix2 k q) = x0 (ix2 p k) * x1 (ix2 k q)
  rw [shapeCast_self]

/-- A block whose rows are rows `5000 r + p` of `a0`, times the whole of `a1`, is rows `5000 r + p` of the product. -/
theorem block_apply (a0 : FVec Ideal (⟨2, ![50000, 192]⟩ : Shape) .f32) (a1 : FVec Ideal (⟨2, ![192, 128]⟩ : Shape) .f32)
    (x0 : Vec Ideal S5000x192 .f32) (x1 : Vec Ideal S192x128 .f32) (r : ℕ) (p : Fin 5000) (q : Fin 128)
    (hr : r * 5000 + 1 * p.val < 50000)
    (h0 : ∀ k : Fin 192, x0 (ix2 p k) = a0 (ix2 ⟨r * 5000 + 1 * p.val, hr⟩ k))
    (h1 : ∀ k : Fin 192, x1 (ix2 k q) = a1 (ix2 k q)) :
    k4_pay1 x0 x1 (ix2 p q) = Gcn.mm a0 a1 (ix2 ⟨r * 5000 + 1 * p.val, hr⟩ q) := by
  rw [pay_apply, Gcn.mm_apply]
  exact Finset.sum_congr rfl fun k _ => by rw [h0 k, h1 k]

/-- The printed index maps over the grid: the feature block and the output block of point `t` are block `t` of their
    arrays' rows, the weight matrix is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of the product of the two arrays as the region finds them. -/
theorem flushed_eq (c : Dev nD) (t : Fin cfg4.N) :
    (dat4 V c).flushed 2 t = ((cfg4.win 2).blk t).view.read (Elt Ideal) (Gcn.mm (V c main_v61) (V c main_arg6)) := by
  show (cfg4.win 2).cut (grid4.coords t) ((dat4 V c).after 2 t) = _
  rw [after4_2]
  unfold out4_2
  rw [View.canon_unit_zero hz]
  simp only [View.ld_unit_zero (S := S5000x192) hz, View.ld_unit_zero (S := S192x128) hz]
  obtain ⟨e0, e1, e2, e3, e4, e5⟩ := idx_facts t
  funext j
  have hj0 : (j 0).val < 5000 := (j 0).isLt
  have hj1 : (j 1).val < 128 := (j 1).isLt
  have ht : t.val < 10 := lt_of_lt_of_eq t.isLt N_4
  have hr : t.val * 5000 + 1 * (j 0).val < 50000 := by omega
  have hemb : ((cfg4.win 2).blk t).view.emb j
      = ix2 (⟨t.val * 5000 + 1 * (j 0).val, hr⟩ : Fin 50000) (⟨(j 1).val, hj1⟩ : Fin 128) := by
    funext a; apply Fin.ext
    match a with
    | ⟨0, _⟩ => show win4_2.index t (0 : Fin 2) * 5000 + 1 * (j 0).val = t.val * 5000 + 1 * (j 0).val; rw [e4]
    | ⟨1, _⟩ => show win4_2.index t (1 : Fin 2) * 128 + 1 * (j 1).val = (j 1).val; rw [e5]; omega
  have hjx : j = ix2 (⟨(j 0).val, hj0⟩ : Fin 5000) (⟨(j 1).val, hj1⟩ : Fin 128) := by
    funext a; match a with | ⟨0, _⟩ => rfl | ⟨1, _⟩ => rfl
  show k4_pay1 (iblk4 V c 0 t) (iblk4 V c 1 t) j
    = Gcn.mm (V c main_v61) (V c main_arg6) (((cfg4.win 2).blk t).view.emb j)
  rw [hemb]
  refine (congrArg (k4_pay1 (iblk4 V c 0 t) (iblk4 V c 1 t)) hjx).trans ?_
  refine block_apply (V c main_v61) (V c main_arg6) (iblk4 V c 0 t) (iblk4 V c 1 t) t.val
    ⟨(j 0).val, hj0⟩ ⟨(j 1).val, hj1⟩ hr (fun k => ?_) (fun k => ?_)
  · -- row `p` of the feature block is row `5000 t + p` of the feature array
    show V c main_v61 (((cfg4.win 0).blk t).view.emb (ix2 (⟨(j 0).val, hj0⟩ : Fin 5000) k)) = _
    refine congrArg (V c main_v61) ?_
    funext a; apply Fin.ext
    match a with
    | ⟨0, _⟩ => show win4_0.index t (0 : Fin 2) * 5000 + 1 * (j 0).val = t.val * 5000 + 1 * (j 0).val; rw [e0]
    | ⟨1, _⟩ => show win4_0.index t (1 : Fin 2) * 192 + 1 * k.val = k.val; rw [e1]; omega
  · -- the weight block is the whole weight matrix
    show V c main_arg6 (((cfg4.win 1).blk t).view.emb (ix2 k (⟨(j 1).val, hj1⟩ : Fin 128))) = _
    refine congrArg (V c main_arg6) ?_
    funext a; apply Fin.ext
    match a with
    | ⟨0, _⟩ => show win4_1.index t (0 : Fin 2) * 192 + 1 * k.val = k.val; rw [e2]; omega
    | ⟨1, _⟩ => show win4_1.index t (1 : Fin 2) * 128 + 1 * (j 1).val = (j 1).val; rw [e3]; omega

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- The ten blocks tile the output's rows: row `r` is in the block of point `r / 5000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : (i 0).val / 5000 < grid4.N := by rw [N_4]; omega
  obtain ⟨-, -, -, -, e4, e5⟩ := idx_facts ⟨(i 0).val / 5000, hN⟩
  refine ⟨⟨(i 0).val / 5000, hN⟩, flush4_2 _, ?_⟩
  rw [mem_blk]
  intro a
  match a with
  | ⟨0, _⟩ =>
    show win4_2.index ⟨(i 0).val / 5000, hN⟩ (0 : Fin 2) * 5000 ≤ (i 0).val
      ∧ (i 0).val < win4_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hN⟩ (1 : Fin 2) * 128 ≤ (i 1).val
      ∧ (i 1).val < win4_2.index ⟨(i 0).val / 5000, hN⟩ (1 : Fin 2) * 128 + 128
    rw [e5]; omega

/-- THE OUTPUT ARRAY after the region: the product of the two input arrays as the region finds them. -/
theorem final (c : Dev nD) : (dat4 V c).arrAt 2 cfg4.N = Gcn.mm (V c main_v61) (V c main_arg6) :=
  (dat4 V c).arrAt_eq_of_cover 2 _ (fun t _ => flushed_eq V c t) cover

end Cert.KernelIdeal.MM4

end
-- ==== Proof.RegionOut5.lean ====
/-
  Region 5 of the graph convolution (last layer's bias, logistic function and threshold): after the region's run each of
  its two output arrays is ONE whole-array function of its two input arrays, whatever the buffers hold when the region is
  entered. The body adds the bias row to each row of a block of 5000 rows of the aggregate and applies the logistic
  function (first output), then writes one where that value is at least one half and zero elsewhere (second output); the
  ten blocks tile the 50000 rows, so the first output array is `Gcn.biasLogistic` of the aggregate array and the bias
  row and the second is `Gcn.threshold` of the first.
-/
import proofs.«126298_j45749991637478_1_alg».proof.Proof.Gen.KernelIdeal.Frame
import proofs.«126298_j45749991637478_1_alg».proof.Proof.Spec
import Idealize.ShloMosaic.Lib.Pipeline.Value
import Idealize.ShloMosaic.Lib.ValueLayout

set_option maxRecDepth 16384

noncomputable section

namespace Cert.KernelIdeal.Out5

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

-- the buffer contents when the region is entered: arbitrary
variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The body's arithmetic at one entry of a block -/

/-- The logistic function of a block, read at an entry, is the logistic function of the entry. -/
theorem logistic_apply {s : Shape} {φ : FTy} (a : FVec Ideal s φ) (i : s.Idx) : logistic a i = Ideal.logistic (a i) := rfl

/-- Entry `(p, q)` of the first stored value: the logistic function of entry `(p, q)` of the aggregate block plus entry
    `q` of the bias row. The two shape casts are onto the same shape; the row is broadcast over the rows. -/
theorem pay1_apply (x0 : Vec Ideal S5000x128 .f32) (x1 : Vec Ideal S1x128 .f32) (p : Fin 5000) (q : Fin 128) :
    k5_pay1 x0 x1 (ix2 p q) = Ideal.logistic (x0 (ix2 p q) + x1 (ix2 ⟨0, Nat.one_pos⟩ q)) := by
  unfold k5_pay1
  simp only [shapeCast_self]
  rw [logistic_apply, addf_apply, broadcastTo_1b_ab_apply]
  rfl

/-- The second stored value is the threshold of the first, entry by entry: one where the first is at least one half,
    zero elsewhere. -/
theorem pay2_apply (x0 : Vec Ideal S5000x128 .f32) (x1 : Vec Ideal S1x128 .f32) (y : S5000x128.Idx) :
    k5_pay2 x0 x1 y
      = Scalar.select (FloatOps.cmpf .oge (k5_pay1 x0 x1 y) (Ideal.ofBits .f32 0x3F000000#32 : Ideal .f32))
          (Ideal.ofBits .f32 0x3F800000#32 : Ideal .f32) (Ideal.ofBits .f32 0x00000000#32 : Ideal .f32) := by
  unfold k5_pay2
  rfl

/-- The first value's entry against the whole arrays: if the aggregate block's entry `y` is the aggregate array's
    entry `i` and the bias block's entry in `y`'s column is the bias array's entry in `i`'s column, the body's entry `y`
    is entry `i` of the whole-array function. -/
theorem pay1_point (x0 : Vec Ideal S5000x128 .f32) (x1 : Vec Ideal S1x128 .f32)
    (X : FVec Ideal S50000x128 .f32) (b : FVec Ideal S1x128 .f32) (y : S5000x128.Idx) (i : S50000x128.Idx)
    (hx : x0 y = X i) (hb : x1 (ix2 ⟨0, Nat.one_pos⟩ (y 1)) = b (Gcn.row0 (i 1))) :
    k5_pay1 x0 x1 y = Gcn.biasLogistic X b i := by
  obtain ⟨p, q, rfl⟩ : ∃ (p : Fin 5000) (q : Fin 128), y = ix2 p q := ⟨y 0, y 1, eq_ix2 y⟩
  rw [pay1_apply, hx]
  exact congrArg (fun v => Ideal.logistic (X i + v)) hb

/-- The same for the second value: it is entry `i` of the threshold of the whole-array function. -/
theorem pay2_point (x0 : Vec Ideal S5000x128 .f32) (x1 : Vec Ideal S1x128 .f32)
    (X : FVec Ideal S50000x128 .f32) (b : FVec Ideal S1x128 .f32) (y : S5000x128.Idx) (i : S50000x128.Idx)
    (hx : x0 y = X i) (hb : x1 (ix2 ⟨0, Nat.one_pos⟩ (y 1)) = b (Gcn.row0 (i 1))) :
    k5_pay2 x0 x1 y = Gcn.threshold (Gcn.biasLogistic X b) i := by
  rw [pay2_apply, pay1_point x0 x1 X b y i hx hb]
  rfl

/-! ## Where each window's block sits at a grid point -/

/-- At point `t` the aggregate's and both outputs' block index is `(t, 0)`, the bias row's `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-! ## The first output: the bias row added, then the logistic function -/

/-- What point `t` writes back to the first output is block `t` of the whole-array function of the two input arrays as
    the region finds them: rows `5000 t … 5000 t + 4999`, every column. -/
theorem flushed_eq_h (c : Dev nD) (t : Fin cfg5.N) :
    (dat5 (F := Ideal) V c).flushed 2 t
      = ((cfg5.win 2).blk t).view.read (Elt Ideal) (Gcn.biasLogistic (V c main_v74) (V c main_v75)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5, e6, e7⟩ := idx_facts t
  funext j
  show k5_pay1 (iblk5 V c 0 t) (iblk5 V c 1 t) j
    = (Gcn.biasLogistic (V c main_v74) (V c main_v75)) (((cfg5.win 2).blk t).view.emb j)
  refine pay1_point _ _ _ _ j _ ?_ ?_
  · -- the aggregate's block and the output's block sit at the same place
    show V c main_v74 (((cfg5.win 0).blk t).view.emb j) = V c main_v74 (((cfg5.win 2).blk t).view.emb j)
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · -- the bias block is the whole bias row; the output block spans every column
    show V c main_v75 (((cfg5.win 1).blk t).view.emb (ix2 ⟨0, Nat.one_pos⟩ (j 1)))
      = V c main_v75 (Gcn.row0 ((((cfg5.win 2).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An entry of the array is in point `t`'s block iff each coordinate is in the block's range on its axis. -/
theorem mem_blk_h (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v76_0).slice (win5_2.rect t)).set ↔ _
  rw [View.set_slice_whole, Rect.mem_set_unit]
  exact Iff.rfl

/-- Row `r` lies in the block of point `r / 5000`. -/
theorem cover_h (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  have hlt : (i 0).val / 5000 < cfg5.N := by show _ < grid5.N; rw [hN]; omega
  obtain ⟨-, -, -, -, e4, e5, e6, e7⟩ := idx_facts ⟨(i 0).val / 5000, hlt⟩
  have e4' : win5_2.index ⟨(i 0).val / 5000, hlt⟩ (0 : Fin 2) = (i 0).val / 5000 := e4
  have e6' : win5_3.index ⟨(i 0).val / 5000, hlt⟩ (0 : Fin 2) = (i 0).val / 5000 := e6
  refine ⟨⟨(i 0).val / 5000, hlt⟩, flush5_2 _, ?_⟩
  rw [mem_blk_h]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    omega
  | ⟨1, _⟩ =>
    show win5_2.index ⟨(i 0).val / 5000, hlt⟩ (1 : Fin 2) * 128 ≤ (i 1).val
      ∧ (i 1).val < win5_2.index ⟨(i 0).val / 5000, hlt⟩ (1 : Fin 2) * 128 + 128
    omega

/-- After the region's run the first output array is the logistic function of the bias row added to every row of the
    aggregate, of the two input arrays as the region finds them. -/
theorem final_h (c : Dev nD) :
    (dat5 (F := Ideal) V c).arrAt 2 cfg5.N = Gcn.biasLogistic (V c main_v74) (V c main_v75) :=
  (dat5 V c).arrAt_eq_of_cover 2 _ (fun t _ => flushed_eq_h V c t) cover_h

/-! ## The second output: the threshold of the first -/

/-- What point `t` writes back to the second output is block `t` of the threshold of that whole-array function. -/
theorem flushed_eq_hc (c : Dev nD) (t : Fin cfg5.N) :
    (dat5 (F := Ideal) V c).flushed 3 t
      = ((cfg5.win 3).blk t).view.read (Elt Ideal) (Gcn.threshold (Gcn.biasLogistic (V c main_v74) (V c main_v75))) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨e0, e1, e2, e3, e4, e5, e6, e7⟩ := idx_facts t
  funext j
  show k5_pay2 (iblk5 V c 0 t) (iblk5 V c 1 t) j
    = (Gcn.threshold (Gcn.biasLogistic (V c main_v74) (V c main_v75))) (((cfg5.win 3).blk t).view.emb j)
  refine pay2_point _ _ _ _ j _ ?_ ?_
  · -- the aggregate's block and the output's block sit at the same place
    show V c main_v74 (((cfg5.win 0).blk t).view.emb j) = V c main_v74 (((cfg5.win 3).blk t).view.emb j)
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · -- the bias block is the whole bias row; the output block spans every column
    show V c main_v75 (((cfg5.win 1).blk t).view.emb (ix2 ⟨0, Nat.one_pos⟩ (j 1)))
      = V c main_v75 (Gcn.row0 ((((cfg5.win 3).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega

/-- An entry of the array is in point `t`'s block iff each coordinate is in the block's range on its axis. -/
theorem mem_blk_hc (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v76_1).slice (win5_3.rect t)).set ↔ _
  rw [View.set_slice_whole, Rect.mem_set_unit]
  exact Iff.rfl

/-- Row `r` lies in the block of point `r / 5000`. -/
theorem cover_hc (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 10 := N_5
  have hlt : (i 0).val / 5000 < cfg5.N := by show _ < grid5.N; rw [hN]; omega
  obtain ⟨-, -, -, -, e4, e5, e6, e7⟩ := idx_facts ⟨(i 0).val / 5000, hlt⟩
  have e4' : win5_2.index ⟨(i 0).val / 5000, hlt⟩ (0 : Fin 2) = (i 0).val / 5000 := e4
  have e6' : win5_3.index ⟨(i 0).val / 5000, hlt⟩ (0 : Fin 2) = (i 0).val / 5000 := e6
  refine ⟨⟨(i 0).val / 5000, hlt⟩, flush5_3 _, ?_⟩
  rw [mem_blk_hc]
  intro a
  match a with
  | ⟨0, _⟩ =>
    show win5_3.index ⟨(i 0).val / 5000, hlt⟩ (0 : Fin 2) * 5000 ≤ (i 0).val
      ∧ (i 0).val < win5_3.index ⟨(i 0).val / 5000, hlt⟩ (0 : Fin 2) * 5000 + 5000
    omega
  | ⟨1, _⟩ =>
    show win5_3.index ⟨(i 0).val / 5000, hlt⟩ (1 : Fin 2) * 128 ≤ (i 1).val
      ∧ (i 1).val < win5_3.index ⟨(i 0).val / 5000, hlt⟩ (1 : Fin 2) * 128 + 128
    omega

/-- After the region's run the second output array is one where the first output is at least one half and zero elsewhere. -/
theorem final_hc (c : Dev nD) :
    (dat5 (F := Ideal) V c).arrAt 3 cfg5.N = Gcn.threshold (Gcn.biasLogistic (V c main_v74) (V c main_v75)) :=
  (dat5 V c).arrAt_eq_of_cover 3 _ (fun t _ => flushed_eq_hc V c t) cover_hc

end Cert.KernelIdeal.Out5

end
-- ==== Proof.GlueChain.lean ====
/-
  The kernel's program, boundary by boundary, against the reference's stages.

  Each region's output array is one whole-array function of the arrays the region finds (the matrix product, or the
  bias and activation), and each stretch of host operations between two regions is, operation for operation, the
  reference's gather of the linear output at the edges' sources, product with the edge weights and scatter-add at
  the edges' destinations. So, walking the boundaries in order, every array a later step reads is the reference's
  stage of the same meaning as a function of @main's arguments: the linear output of layer one, its aggregate, its
  activation, and so on to the two results. The shared gather and scatter-add are never opened: once the arrays
  going into them are the reference's, the two terms are the same term.
-/
import proofs.«126298_j45749991637478_1_alg».proof.Proof.Gen.KernelIdeal.Frame
import proofs.«126298_j45749991637478_1_alg».proof.Proof.RefRead
import proofs.«126298_j45749991637478_1_alg».proof.Proof.RefStages
import proofs.«126298_j45749991637478_1_alg».proof.Proof.Spec
import proofs.«126298_j45749991637478_1_alg».proof.Proof.Keep
import proofs.«126298_j45749991637478_1_alg».proof.Proof.BiasRows
import proofs.«126298_j45749991637478_1_alg».proof.Proof.GluePrefix
import proofs.«126298_j45749991637478_1_alg».proof.Proof.GlueAgg
import proofs.«126298_j45749991637478_1_alg».proof.Proof.RegionMM0
import proofs.«126298_j45749991637478_1_alg».proof.Proof.RegionBias1
import proofs.«126298_j45749991637478_1_alg».proof.Proof.RegionMM2
import proofs.«126298_j45749991637478_1_alg».proof.Proof.RegionBias3
import proofs.«126298_j45749991637478_1_alg».proof.Proof.RegionMM4
import proofs.«126298_j45749991637478_1_alg».proof.Proof.RegionOut5
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- Layer one's linear output: the features times the first weight matrix. -/
theorem W4_lin (c : Dev nD) :
    W4 m ρ c (Proc.devRef .tc main_v32) = Cert.ReferenceIdeal.Read.val_main_v31 (F := Ideal) (m ((c : Thread nD τ).loc main_arg0)) (m ((c : Thread nD τ).loc main_arg2)) :=
  (W4_arr m ρ c 2).trans <| (MM0.final (V3 m ρ) c).trans <| by
    rw [show V3 m ρ c main_arg0 = (m ((c : Thread nD τ).loc main_arg0)) from Keep.W3_arg0 m ρ c,
      show V3 m ρ c main_arg2 = (m ((c : Thread nD τ).loc main_arg2)) from Keep.W3_arg2 m ρ c]
    exact (Cert.ReferenceIdeal.Stages.lin1 (m ((c : Thread nD τ).loc main_arg0)) (m ((c : Thread nD τ).loc main_arg2))).symm

/-- Layer one's aggregate over the edges. -/
theorem W5_agg (c : Dev nD) :
    W5 m ρ c (Proc.devRef .tc main_v44) = Cert.ReferenceIdeal.Read.val_main_v44 (F := Ideal) (m ((c : Thread nD τ).loc main_arg0)) (m ((c : Thread nD τ).loc main_arg1)) (m ((c : Thread nD τ).loc main_arg2)) :=
  Agg.agg1_of (F := Ideal) (W4 m ρ c) (m ((c : Thread nD τ).loc main_arg0)) (m ((c : Thread nD τ).loc main_arg1)) (m ((c : Thread nD τ).loc main_arg2)) (W4_lin m ρ c)
    ((Keep.W4_main_v3 m ρ c).trans (Prefix.W3_src m ρ c))
    ((Keep.W4_main_v6 m ρ c).trans (Prefix.W3_dst m ρ c))
    ((Keep.W4_main_v31 m ρ c).trans (Prefix.W3_norm m ρ c))

/-- Layer one's output: bias and relu. -/
theorem W6_act (c : Dev nD) :
    W6 m ρ c (Proc.devRef .tc main_v46) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) :=
  (W6_arr m ρ c 2).trans <| (Bias1.final (V5 m ρ) c).trans <| by
    rw [show V5 m ρ c main_v44 = Cert.ReferenceIdeal.Read.val_main_v44 (F := Ideal) (m ((c : Thread nD τ).loc main_arg0)) (m ((c : Thread nD τ).loc main_arg1)) (m ((c : Thread nD τ).loc main_arg2)) from W5_agg m ρ c]
    exact (Cert.ReferenceIdeal.Stages.act1 (m ((c : Thread nD τ).loc main_arg0)) (m ((c : Thread nD τ).loc main_arg1)) (m ((c : Thread nD τ).loc main_arg2)) (m ((c : Thread nD τ).loc main_arg3)) (V5 m ρ c main_v45) (fun q => BiasRows.W5_bias m ρ c q)).symm

/-- Layer two's linear output. -/
theorem W7_lin (c : Dev nD) :
    W7 m ρ c (Proc.devRef .tc main_v47) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans <| (MM2.final (V6 m ρ) c).trans <| by
    rw [show V6 m ρ c main_v46 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) from W6_act m ρ c,
      show V6 m ρ c main_arg4 = (m ((c : Thread nD τ).loc main_arg4)) from Keep.W6_arg4 m ρ c]
    exact (Cert.ReferenceIdeal.Stages.lin2 (m ((c : Thread nD τ).loc main_arg0)) (m ((c : Thread nD τ).loc main_arg1)) (m ((c : Thread nD τ).loc main_arg2)) (m ((c : Thread nD τ).loc main_arg3)) (m ((c : Thread nD τ).loc main_arg4))).symm

/-- Layer two's aggregate over the edges. -/
theorem W8_agg (c : Dev nD) :
    W8 m ρ c (Proc.devRef .tc main_v59) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Agg.agg2_of (F := Ideal) (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (W7_lin m ρ c)
    ((Keep.W7_main_v3 m ρ c).trans (Prefix.W3_src m ρ c))
    ((Keep.W7_main_v6 m ρ c).trans (Prefix.W3_dst m ρ c))
    ((Keep.W7_main_v31 m ρ c).trans (Prefix.W3_norm m ρ c))

/-- Layer two's output: bias and relu. -/
theorem W9_act (c : Dev nD) :
    W9 m ρ c (Proc.devRef .tc main_v61) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans <| (Bias3.final (V8 m ρ) c).trans <| by
    rw [show V8 m ρ c main_v59 = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from W8_agg m ρ c]
    exact (Cert.ReferenceIdeal.Stages.act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (V8 m ρ c main_v60) (fun q => BiasRows.W8_bias m ρ c q)).symm

/-- Layer three's linear output. -/
theorem W10_lin (c : Dev nD) :
    W10 m ρ c (Proc.devRef .tc main_v62) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans <| (MM4.final (V9 m ρ) c).trans <| by
    rw [show V9 m ρ c main_v61 = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from W9_act m ρ c,
      show V9 m ρ c main_arg6 = (m ((c : Thread nD τ).loc main_arg6)) from Keep.W9_arg6 m ρ c]
    exact (Cert.ReferenceIdeal.Stages.lin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-- Layer three's aggregate over the edges. -/
theorem W11_agg (c : Dev nD) :
    W11 m ρ c (Proc.devRef .tc main_v74) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Agg.agg3_of (F := Ideal) (W10 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (W10_lin m ρ c)
    ((Keep.W10_main_v3 m ρ c).trans (Prefix.W3_src m ρ c))
    ((Keep.W10_main_v6 m ρ c).trans (Prefix.W3_dst m ρ c))
    ((Keep.W10_main_v31 m ρ c).trans (Prefix.W3_norm m ρ c))

/-- The first result: bias and sigmoid. -/
theorem W12_h (c : Dev nD) :
    W12 m ρ c (Proc.devRef .tc main_v76_0) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans <| (Out5.final_h (V11 m ρ) c).trans <| by
    rw [show V11 m ρ c main_v74 = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from W11_agg m ρ c]
    exact (Cert.ReferenceIdeal.Stages.out_h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (V11 m ρ c main_v75) (fun q => BiasRows.W11_bias m ρ c q)).symm

/-- The second result: the sigmoid thresholded at one half. -/
theorem W12_hc (c : Dev nD) :
    W12 m ρ c (Proc.devRef .tc main_v76_1) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 3).trans <| (Out5.final_hc (V11 m ρ) c).trans <| by
    rw [show V11 m ρ c main_v74 = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from W11_agg m ρ c,
      ← Cert.ReferenceIdeal.Stages.out_h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (V11 m ρ c main_v75) (fun q => BiasRows.W11_bias m ρ c q)]
    exact (Cert.ReferenceIdeal.Stages.out_hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

end Cert.KernelIdeal.Chain

end
-- ==== Proof.lean ====
/-
  A three-layer graph convolution, as six TensorCore regions among host gathers and scatter-adds, against its
  plain reference: the two programs, run from memories that agree on the arguments, end with equal results as
  extended reals, and each runs to the end leaving its arguments as they were.

  Both programs build the same edge bookkeeping from the edge list (sources, destinations and the symmetric
  normalisation weights), and both compute each layer as: the node features times a weight matrix; for every
  edge, the product's row at the edge's source times the edge's weight, summed into the row of the edge's
  destination; a bias added to every row; an activation (the maximum with zero twice, then the logistic function,
  whose result is also thresholded at one half). They differ only in who does three of those steps. The kernel's
  program does the matrix product in a region that walks the rows in ten blocks of 5000, rounding both operands to
  bf16 on the way in — the identity on extended reals — and accumulating into zero; the reference does one
  `dot_general`. Both are the sum over the contracted axis of the products of the entries, and a sum over a finite
  index set has no order, so no distributive or cancellation law is needed and no entry has to be finite: the
  precondition is never opened. The kernel's program adds the bias and applies the activation in a region, reading
  the bias as a one-row array; the reference broadcasts the bias vector. And the kernel's logistic operation is, by
  definition at the extended reals, `1 / (1 + exp (-v))`, which is how the reference spells its sigmoid; the
  threshold is the same comparison and selection on both sides, with the same literals.

  The modules: `Spec` states the four whole-array functions; `RegionMM0/2/4`, `RegionBias1/3` and `RegionOut5`
  show that each region's output array, after the region's run, is that function of the arrays the region finds;
  `Keep` and `BiasRows` carry the buffers no step in between writes, and read the bias rows; `GluePrefix` and
  `GlueChain` walk the program's boundaries and identify every array with the reference's stage; `RefStages` reads
  the reference's stages as the same four functions; `KernelRun` is the kernel's run with its two results named.
  Here the five claims are assembled.
-/
import proofs.«126298_j45749991637478_1_alg».proof.Defs
import proofs.«126298_j45749991637478_1_alg».proof.Proof.Gen.Kernel
import proofs.«126298_j45749991637478_1_alg».proof.Proof.Gen.Kernel.Skeleton
import proofs.«126298_j45749991637478_1_alg».proof.Proof.Gen.Kernel.Launch
import proofs.«126298_j45749991637478_1_alg».proof.Proof.Gen.Kernel.Points
import proofs.«126298_j45749991637478_1_alg».proof.Proof.Gen.Kernel.Frame
import proofs.«126298_j45749991637478_1_alg».proof.Proof.Gen.KernelIdeal
import proofs.«126298_j45749991637478_1_alg».proof.Proof.Gen.KernelIdeal.Skeleton
import proofs.«126298_j45749991637478_1_alg».proof.Proof.Gen.KernelIdeal.Launch
import proofs.«126298_j45749991637478_1_alg».proof.Proof.Gen.KernelIdeal.Points
import proofs.«126298_j45749991637478_1_alg».proof.Proof.Gen.KernelIdeal.Frame
import proofs.«126298_j45749991637478_1_alg».proof.Proof.Gen.ReferenceIdeal
import proofs.«126298_j45749991637478_1_alg».proof.Proof.Gen.Pre_finite_inputs
import proofs.«126298_j45749991637478_1_alg».proof.Proof.RefRun
import proofs.«126298_j45749991637478_1_alg».proof.Proof.RefRead
import proofs.«126298_j45749991637478_1_alg».proof.Proof.KernelRun
import proofs.«126298_j45749991637478_1_alg».proof.Proof.GlueChain
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the two results dropped from the post. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: there is nothing to preserve. -/
theorem preserves : Cert.preserves_Kernel_KernelIdeal := trivial

/-- From memories that agree on the arguments both programs end with the same two results: the kernel's result
    arrays are the last boundary's contents, which the walk through the boundaries identifies with the reference's
    last two stages of the kernel's arguments; the reference's results are those stages of its own arguments, which
    are the kernel's. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W12_h m ρ c),
        (h c).2.1.trans (Cert.KernelIdeal.Chain.W12_hc m ρ c), (h c).2.2⟩)
      (Cert.KernelIdeal.Named.run (F := Ideal) m ρ)
  · refine (θ_run Cert.ReferenceIdeal.defs _ _).mono (fun r h c => ?_)
      (Cert.ReferenceIdeal.Value.run (F := Ideal) m' ρ')
    obtain ⟨h0, h1, h2, h3, h4, h5, h6, h7⟩ := hagree c
    refine ⟨(h c).1.trans ?_, (h c).2.1.trans ?_, (h c).2.2⟩
    · rw [Cert.ReferenceIdeal.Read.val_main_v89_eq, h0, h1, h2, h3, h4, h5, h6, h7]
    · rw [Cert.ReferenceIdeal.Read.val_main_v93_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
